-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S10000x1 : Shape := ⟨2, ![10000, 1]⟩
abbrev S1x128 : Shape := ⟨2, ![1, 128]⟩

abbrev nBuf : Space → Nat
  | .hbm => 140
  | .vmem => 48
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S2x1600000, .i32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S100000x128, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000x128, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S1700000x1, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000x128, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000, .f32⟩
  | 94 => ⟨S1700000, .f32⟩
  | 95 => ⟨S1700000x1, .f32⟩
  | 96 => ⟨S1700000x128, .f32⟩
  | 97 => ⟨S_, .f32⟩
  | 98 => ⟨S100000x128, .f32⟩
  | 99 => ⟨S1700000x1, .i32⟩
  | 100 => ⟨S100000x128, .f32⟩
  | 101 => ⟨S1x128, .f32⟩
  | 102 => ⟨S100000x128, .f32⟩
  | 103 => ⟨S100000x128, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x128, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x128, .f32⟩

abbrev hbmTy0_1 (i : Nat) : BufTy := match i % 128 with
  | 0 => ⟨S1700000, .i32⟩
  | 1 => ⟨S1700000x1, .i32⟩
  | 2 => ⟨S1700000, .f32⟩
  | 3 => ⟨S1700000, .f32⟩
  | 4 => ⟨S1700000x1, .f32⟩
  | 5 => ⟨S1700000x128, .f32⟩
  | 6 => ⟨S_, .f32⟩
  | 7 => ⟨S100000x128, .f32⟩
  | 8 => ⟨S1700000x1, .i32⟩
  | 9 => ⟨S100000x128, .f32⟩
  | 10 => ⟨S1x128, .f32⟩
  | 11 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S128x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x1, .f32⟩
  | .local _ .vmem, ⟨40, _⟩ => ⟨S10000x1, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S1x128, .f32⟩
  | .local _ .vmem, ⟨46, _⟩ => ⟨S10000x128, .f32⟩
  | .local _ .vmem, ⟨47, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_16 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_18 : Ref sig .tc := ⟨.hbm, 113, rfl⟩
abbrev main_v83 : Ref sig .tc := ⟨.hbm, 114, rfl⟩
abbrev main_v84 : Ref sig .tc := ⟨.hbm, 115, rfl⟩
abbrev main_c_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_20 : Ref sig .tc := ⟨.hbm, 122, rfl⟩
abbrev main_v90 : Ref sig .tc := ⟨.hbm, 123, rfl⟩
abbrev main_v91 : Ref sig .tc := ⟨.hbm, 124, rfl⟩
abbrev main_c_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_22 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![170], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  gather_S100000_S1700000x1_S1700000_n_0_n_n_0_1_1_wf : GatherDims.WF S100000 S1700000x1 S1700000 [] [0] [] [0] [] 1 ![1]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1700000x128.size a
  hwx4_0 : ∀ i : grid4.Coords, EltTy.bits .f32 = 32 ∨ (Rect.block (s := S1700000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S1700000x128.size a
  hwx4_2 : ∀ i : grid4.Coords, EltTy.bits .f32 = 32 ∨ (Rect.block (s := S1700000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S100000x128.size a
  hwx6_2 : ∀ i : grid6.Coords, EltTy.bits .f32 = 32 ∨ (Rect.block (s := S100000x128) S10000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S1700000x128.size a
  hwx7_0 : ∀ i : grid7.Coords, EltTy.bits .f32 = 32 ∨ (Rect.block (s := S1700000x128) S10000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S1700000x1.size a
  hwx7_1 : ∀ i : grid7.Coords, EltTy.bits .f32 = 32 ∨ (Rect.block (s := S1700000x1) S10000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x128.size a ≤ S1700000x128.size a
  hwx7_2 : ∀ i : grid7.Coords, EltTy.bits .f32 = 32 ∨ (Rect.block (s := S1700000x128) S10000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x128.size a ≤ S100000x128.size a
  hwx8_2 : ∀ i : grid8.Coords, EltTy.bits .f32 = 32 ∨ (Rect.block (s := S100000x128) S10000x128.size (cc8_transform_2 i) (hinb8_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg5) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v82) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v98) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v99) S10000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v102) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v103) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v104) S10000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S2x1600000, .i32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S100000x128, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x128, .f32⟩
  | 100 => ⟨S1700000x1, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x128, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000, .f32⟩
  | 4 => ⟨S1700000, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000x128, .f32⟩
  | 14 => ⟨S1700000x1, .f32⟩
  | 15 => ⟨S1700000x128, .f32⟩
  | 16 => ⟨S1700000x128, .f32⟩
  | 17 => ⟨S_, .f32⟩
  | 18 => ⟨S100000x128, .f32⟩
  | 19 => ⟨S1700000x1, .i32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_18 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_20 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_22 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_call3_cst : Ref sig .tc := ⟨.hbm, 152, rfl⟩
abbrev main_call3_v0 : Ref sig .tc := ⟨.hbm, 153, rfl⟩
abbrev main_v113 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The run of the idealized kernel program with its result named.

  The program is nine tiled regions among stretches of host operations.  Its run goes from boundary to boundary:
  a stretch of host operations rewrites the buffers it writes, a region leaves in each of its arrays what its
  write-backs leave and every other buffer as it found it.  The contents at the last boundary are therefore a fold
  from the launch memory, and every weakly fair execution ends with each unscoped buffer at that fold.  The frame
  claim reads the fold only at the argument arrays; here it is read at the result array as well: the result ends at
  the last boundary's contents of the last region's output array, the arguments as launched.
-/
import proofs.«111753_j24386824306774_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program terminates, nothing faulting; the result array ends at the last
    boundary's contents and each argument array as launched. -/
theorem run_named : θ_run defs (onTc (τ := τ) (main (F := F))) ⟨m, fun _ => 0, ρ⟩ (fun r => ∀ c : Dev nD,
      r.2.mem ((c.tc : Thread nD τ).loc main_v104) = W17 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v104 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c)⟩)

end Cert.KernelIdeal.Named

end
-- ==== Proof.GcnLayer.lean ====
/-
  One graph-convolution layer as a function of whole arrays, in the host's spelling.

  From the edge list e : [2, 1600000] the two programs build, with the same operations, the source and the
  destination of every edge followed by one self-loop per node (`srcOf`, `dstOf`: 1700000 entries each), the degree
  of every node as the per-node sum of ones over the destinations, and its inverse square root where the degree is
  positive and zero elsewhere (`dinvOf`).  An index is made non-negative by adding the number of nodes to a negative
  one, and laid out as a column for the gather (`wrap`).  The scale of an edge is the product of the two values of
  `dinvOf` at its ends (`normOf`).  A layer multiplies the features by the weights, gathers the product's row of
  each edge's source, scales it, sums per destination, adds the bias and takes the maximum with zero (`layer`).
-/
import proofs.«111753_j24386824306774_1_alg».proof.Proof.Gen.ReferenceIdeal
import Idealize.ShloMosaic.PureOps.Ideal

noncomputable section

namespace Cert.Gcn

open Idealize.ShloMosaic Cert.ReferenceIdeal Cert.ReferenceIdeal.Facts₀

/-- An array of 32-bit integers of shape `S`. -/
abbrev I32 (S : Shape) := IVec S 32
/-- An array of extended reals of shape `S`. -/
abbrev F32 (S : Shape) := FVec Ideal S .f32

/-- The sources of the edges, then every node once (its self-loop). -/
def srcOf (e : I32 S2x1600000) : I32 S1700000 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destinations of the edges, then every node once. -/
def dstOf (e : I32 S2x1600000) : I32 S1700000 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative index counts from the end: the number of nodes is added to it; the result is laid out as a column. -/
def wrap (i : I32 S1700000) : I32 S1700000x1 :=
  broadcastInDim S1700000x1 ![0] bcast_S1700000_S1700000x1_0 (select (cmpi .slt i (broadcastInDim S1700000 ![] bcast_S_S1700000 (constantI S_ 32 0#32))) (addi i (broadcastInDim S1700000 ![] bcast_S_S1700000 (constantI S_ 32 100000#32))) i)

/-- The degree of every node: ones summed per destination. -/
def degOf (e : I32 S2x1600000) : F32 S100000 :=
  Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 (dstOf e)) (broadcastInDim S1700000 ![] bcast_S_S1700000 (constant (F := Ideal) S_ .f32 0x3F800000#32))

/-- The inverse square root of the degree where it is positive, zero elsewhere. -/
def dinvOf (e : I32 S2x1600000) : F32 S100000 :=
  select (cmpf .ogt (degOf e) (broadcastInDim S100000 ![] bcast_S_S100000 (constant (F := Ideal) S_ .f32 0x00000000#32))) (Host.rsqrt (F := Ideal) (degOf e)) (broadcastInDim S100000 ![] bcast_S_S100000 (id (constant (F := Ideal) S_ .f32 0x00000000#32)))

/-- The scale of every edge: the product of `dinvOf` at its source and at its destination. -/
def normOf (e : I32 S2x1600000) : F32 S1700000 :=
  mulf (Host.gather gather_S100000_S1700000x1_S1700000_n_0_n_n_0_1_1 (dinvOf e) (wrap (srcOf e))) (Host.gather gather_S100000_S1700000x1_S1700000_n_0_n_n_0_1_1 (dinvOf e) (wrap (dstOf e)))

/-- The rows of `h` at the edges' sources, each scaled by its edge's scale. -/
def messages (h : F32 S100000x128) (e : I32 S2x1600000) : F32 S1700000x128 :=
  mulf (Host.gather gather_S100000x128_S1700000x1_S1700000x128_1_0_n_n_0_1_1128 h (wrap (srcOf e))) (broadcastInDim S1700000x128 ![0, 1] bcast_S1700000x1_S1700000x128_0_1 (broadcastInDim S1700000x1 ![0] bcast_S1700000_S1700000x1_0 (normOf e)))

/-- The messages summed per destination node. -/
def aggregate (u : F32 S1700000x128) (e : I32 S2x1600000) : F32 S100000x128 :=
  Host.scatterAdd (F := Ideal) scatter_S100000x128_S1700000x1_S1700000x128_1_0_0_1 (broadcastInDim S100000x128 ![] bcast_S_S100000x128 (constant (F := Ideal) S_ .f32 0x00000000#32)) (broadcastInDim S1700000x1 ![0] bcast_S1700000_S1700000x1_0 (dstOf e)) u

/-- One layer: the product with the weights, the messages, their sum per node, the bias, the maximum with zero. -/
def layer (x : F32 S100000x128) (W : F32 S128x128) (b : F32 S128) (e : I32 S2x1600000) : F32 S100000x128 :=
  maximumf (addf (aggregate (messages (Host.dotGeneral (F := Ideal) dot_S100000x128_S128x128_S100000x128_1_0_0_1_n_n none x W) e) e) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

end Cert.Gcn

end
-- ==== Proof.ChainBase.lean ====
/-
  What the buffers that are computed once, or never written, hold at the later boundaries of the run.

  The run's boundary contents are a fold: a stretch of host operations rewrites only its own result buffers, a region
  only its output array.  So the edge ends, the nodes' inverse square-root degrees and the argument arrays, once
  written (or as launched), are found unchanged at every later boundary where a layer reads them.
-/
import proofs.«111753_j24386824306774_1_alg».proof.Proof.Gen.KernelIdeal.Frame
import proofs.«111753_j24386824306774_1_alg».proof.Proof.GcnLayer

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- No operation of a stretch of host operations writes a given buffer: the stretch's operations are listed and each
    one's result buffer is told apart from the given one. -/
macro "host_keeps" "[" ops:ident "]" : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ### The edges' sources, as computed before the first region -/
theorem main_v3_at3 : W3 m ρ c (Proc.devRef .tc main_v3) = W2 m ρ c (Proc.devRef .tc main_v3) :=
  (W3_of_ne m ρ c main_v3 (by decide) : W3 m ρ c (Proc.devRef .tc main_v3) = W2 m ρ c (Proc.devRef .tc main_v3))
theorem main_v3_at4 : W4 m ρ c (Proc.devRef .tc main_v3) = W2 m ρ c (Proc.devRef .tc main_v3) :=
  (StableHlo.after_of_forall_not_mem (b := Proc.devRef .tc main_v3) _ _ (by host_keeps [hostOps1]) : W4 m ρ c (Proc.devRef .tc main_v3) = W3 m ρ c (Proc.devRef .tc main_v3)).trans (main_v3_at3 m ρ c)
theorem main_v3_at5 : W5 m ρ c (Proc.devRef .tc main_v3) = W2 m ρ c (Proc.devRef .tc main_v3) :=
  (W5_of_ne m ρ c main_v3 (by decide) : W5 m ρ c (Proc.devRef .tc main_v3) = W4 m ρ c (Proc.devRef .tc main_v3)).trans (main_v3_at4 m ρ c)
theorem main_v3_at6 : W6 m ρ c (Proc.devRef .tc main_v3) = W2 m ρ c (Proc.devRef .tc main_v3) :=
  (StableHlo.after_of_forall_not_mem (b := Proc.devRef .tc main_v3) _ _ (by host_keeps [hostOps2]) : W6 m ρ c (Proc.devRef .tc main_v3) = W5 m ρ c (Proc.devRef .tc main_v3)).trans (main_v3_at5 m ρ c)
theorem main_v3_at7 : W7 m ρ c (Proc.devRef .tc main_v3) = W2 m ρ c (Proc.devRef .tc main_v3) :=
  (W7_of_ne m ρ c main_v3 (by decide) : W7 m ρ c (Proc.devRef .tc main_v3) = W6 m ρ c (Proc.devRef .tc main_v3)).trans (main_v3_at6 m ρ c)
theorem main_v3_at8 : W8 m ρ c (Proc.devRef .tc main_v3) = W2 m ρ c (Proc.devRef .tc main_v3) :=
  (W8_of_ne m ρ c main_v3 (by decide) : W8 m ρ c (Proc.devRef .tc main_v3) = W7 m ρ c (Proc.devRef .tc main_v3)).trans (main_v3_at7 m ρ c)
theorem main_v3_at9 : W9 m ρ c (Proc.devRef .tc main_v3) = W2 m ρ c (Proc.devRef .tc main_v3) :=
  (StableHlo.after_of_forall_not_mem (b := Proc.devRef .tc main_v3) _ _ (by host_keeps [hostOps4]) : W9 m ρ c (Proc.devRef .tc main_v3) = W8 m ρ c (Proc.devRef .tc main_v3)).trans (main_v3_at8 m ρ c)
theorem main_v3_at10 : W10 m ρ c (Proc.devRef .tc main_v3) = W2 m ρ c (Proc.devRef .tc main_v3) :=
  (W10_of_ne m ρ c main_v3 (by decide) : W10 m ρ c (Proc.devRef .tc main_v3) = W9 m ρ c (Proc.devRef .tc main_v3)).trans (main_v3_at9 m ρ c)
theorem main_v3_at11 : W11 m ρ c (Proc.devRef .tc main_v3) = W2 m ρ c (Proc.devRef .tc main_v3) :=
  (StableHlo.after_of_forall_not_mem (b := Proc.devRef .tc main_v3) _ _ (by host_keeps [hostOps5]) : W11 m ρ c (Proc.devRef .tc main_v3) = W10 m ρ c (Proc.devRef .tc main_v3)).trans (main_v3_at10 m ρ c)
theorem main_v3_at12 : W12 m ρ c (Proc.devRef .tc main_v3) = W2 m ρ c (Proc.devRef .tc main_v3) :=
  (W12_of_ne m ρ c main_v3 (by decide) : W12 m ρ c (Proc.devRef .tc main_v3) = W11 m ρ c (Proc.devRef .tc main_v3)).trans (main_v3_at11 m ρ c)
theorem main_v3_at13 : W13 m ρ c (Proc.devRef .tc main_v3) = W2 m ρ c (Proc.devRef .tc main_v3) :=
  (W13_of_ne m ρ c main_v3 (by decide) : W13 m ρ c (Proc.devRef .tc main_v3) = W12 m ρ c (Proc.devRef .tc main_v3)).trans (main_v3_at12 m ρ c)

/-! ### The edges' destinations -/
theorem main_v6_at3 : W3 m ρ c (Proc.devRef .tc main_v6) = W2 m ρ c (Proc.devRef .tc main_v6) :=
  (W3_of_ne m ρ c main_v6 (by decide) : W3 m ρ c (Proc.devRef .tc main_v6) = W2 m ρ c (Proc.devRef .tc main_v6))
theorem main_v6_at4 : W4 m ρ c (Proc.devRef .tc main_v6) = W2 m ρ c (Proc.devRef .tc main_v6) :=
  (StableHlo.after_of_forall_not_mem (b := Proc.devRef .tc main_v6) _ _ (by host_keeps [hostOps1]) : W4 m ρ c (Proc.devRef .tc main_v6) = W3 m ρ c (Proc.devRef .tc main_v6)).trans (main_v6_at3 m ρ c)
theorem main_v6_at5 : W5 m ρ c (Proc.devRef .tc main_v6) = W2 m ρ c (Proc.devRef .tc main_v6) :=
  (W5_of_ne m ρ c main_v6 (by decide) : W5 m ρ c (Proc.devRef .tc main_v6) = W4 m ρ c (Proc.devRef .tc main_v6)).trans (main_v6_at4 m ρ c)
theorem main_v6_at6 : W6 m ρ c (Proc.devRef .tc main_v6) = W2 m ρ c (Proc.devRef .tc main_v6) :=
  (StableHlo.after_of_forall_not_mem (b := Proc.devRef .tc main_v6) _ _ (by host_keeps [hostOps2]) : W6 m ρ c (Proc.devRef .tc main_v6) = W5 m ρ c (Proc.devRef .tc main_v6)).trans (main_v6_at5 m ρ c)
theorem main_v6_at7 : W7 m ρ c (Proc.devRef .tc main_v6) = W2 m ρ c (Proc.devRef .tc main_v6) :=
  (W7_of_ne m ρ c main_v6 (by decide) : W7 m ρ c (Proc.devRef .tc main_v6) = W6 m ρ c (Proc.devRef .tc main_v6)).trans (main_v6_at6 m ρ c)
theorem main_v6_at8 : W8 m ρ c (Proc.devRef .tc main_v6) = W2 m ρ c (Proc.devRef .tc main_v6) :=
  (W8_of_ne m ρ c main_v6 (by decide) : W8 m ρ c (Proc.devRef .tc main_v6) = W7 m ρ c (Proc.devRef .tc main_v6)).trans (main_v6_at7 m ρ c)
theorem main_v6_at9 : W9 m ρ c (Proc.devRef .tc main_v6) = W2 m ρ c (Proc.devRef .tc main_v6) :=
  (StableHlo.after_of_forall_not_mem (b := Proc.devRef .tc main_v6) _ _ (by host_keeps [hostOps4]) : W9 m ρ c (Proc.devRef .tc main_v6) = W8 m ρ c (Proc.devRef .tc main_v6)).trans (main_v6_at8 m ρ c)
theorem main_v6_at10 : W10 m ρ c (Proc.devRef .tc main_v6) = W2 m ρ c (Proc.devRef .tc main_v6) :=
  (W10_of_ne m ρ c main_v6 (by decide) : W10 m ρ c (Proc.devRef .tc main_v6) = W9 m ρ c (Proc.devRef .tc main_v6)).trans (main_v6_at9 m ρ c)
theorem main_v6_at11 : W11 m ρ c (Proc.devRef .tc main_v6) = W2 m ρ c (Proc.devRef .tc main_v6) :=
  (StableHlo.after_of_forall_not_mem (b := Proc.devRef .tc main_v6) _ _ (by host_keeps [hostOps5]) : W11 m ρ c (Proc.devRef .tc main_v6) = W10 m ρ c (Proc.devRef .tc main_v6)).trans (main_v6_at10 m ρ c)
theorem main_v6_at12 : W12 m ρ c (Proc.devRef .tc main_v6) = W2 m ρ c (Proc.devRef .tc main_v6) :=
  (W12_of_ne m ρ c main_v6 (by decide) : W12 m ρ c (Proc.devRef .tc main_v6) = W11 m ρ c (Proc.devRef .tc main_v6)).trans (main_v6_at11 m ρ c)
theorem main_v6_at13 : W13 m ρ c (Proc.devRef .tc main_v6) = W2 m ρ c (Proc.devRef .tc main_v6) :=
  (W13_of_ne m ρ c main_v6 (by decide) : W13 m ρ c (Proc.devRef .tc main_v6) = W12 m ρ c (Proc.devRef .tc main_v6)).trans (main_v6_at12 m ρ c)
theorem main_v6_at14 : W14 m ρ c (Proc.devRef .tc main_v6) = W2 m ρ c (Proc.devRef .tc main_v6) :=
  (StableHlo.after_of_forall_not_mem (b := Proc.devRef .tc main_v6) _ _ (by host_keeps [hostOps7]) : W14 m ρ c (Proc.devRef .tc main_v6) = W13 m ρ c (Proc.devRef .tc main_v6)).trans (main_v6_at13 m ρ c)
theorem main_v6_at15 : W15 m ρ c (Proc.devRef .tc main_v6) = W2 m ρ c (Proc.devRef .tc main_v6) :=
  (W15_of_ne m ρ c main_v6 (by decide) : W15 m ρ c (Proc.devRef .tc main_v6) = W14 m ρ c (Proc.devRef .tc main_v6)).trans (main_v6_at14 m ρ c)

/-! ### The nodes' inverse square-root degrees -/
theorem main_v14_at3 : W3 m ρ c (Proc.devRef .tc main_v14) = W2 m ρ c (Proc.devRef .tc main_v14) :=
  (W3_of_ne m ρ c main_v14 (by decide) : W3 m ρ c (Proc.devRef .tc main_v14) = W2 m ρ c (Proc.devRef .tc main_v14))
theorem main_v14_at4 : W4 m ρ c (Proc.devRef .tc main_v14) = W2 m ρ c (Proc.devRef .tc main_v14) :=
  (StableHlo.after_of_forall_not_mem (b := Proc.devRef .tc main_v14) _ _ (by host_keeps [hostOps1]) : W4 m ρ c (Proc.devRef .tc main_v14) = W3 m ρ c (Proc.devRef .tc main_v14)).trans (main_v14_at3 m ρ c)
theorem main_v14_at5 : W5 m ρ c (Proc.devRef .tc main_v14) = W2 m ρ c (Proc.devRef .tc main_v14) :=
  (W5_of_ne m ρ c main_v14 (by decide) : W5 m ρ c (Proc.devRef .tc main_v14) = W4 m ρ c (Proc.devRef .tc main_v14)).trans (main_v14_at4 m ρ c)
theorem main_v14_at6 : W6 m ρ c (Proc.devRef .tc main_v14) = W2 m ρ c (Proc.devRef .tc main_v14) :=
  (StableHlo.after_of_forall_not_mem (b := Proc.devRef .tc main_v14) _ _ (by host_keeps [hostOps2]) : W6 m ρ c (Proc.devRef .tc main_v14) = W5 m ρ c (Proc.devRef .tc main_v14)).trans (main_v14_at5 m ρ c)
theorem main_v14_at7 : W7 m ρ c (Proc.devRef .tc main_v14) = W2 m ρ c (Proc.devRef .tc main_v14) :=
  (W7_of_ne m ρ c main_v14 (by decide) : W7 m ρ c (Proc.devRef .tc main_v14) = W6 m ρ c (Proc.devRef .tc main_v14)).trans (main_v14_at6 m ρ c)
theorem main_v14_at8 : W8 m ρ c (Proc.devRef .tc main_v14) = W2 m ρ c (Proc.devRef .tc main_v14) :=
  (W8_of_ne m ρ c main_v14 (by decide) : W8 m ρ c (Proc.devRef .tc main_v14) = W7 m ρ c (Proc.devRef .tc main_v14)).trans (main_v14_at7 m ρ c)
theorem main_v14_at9 : W9 m ρ c (Proc.devRef .tc main_v14) = W2 m ρ c (Proc.devRef .tc main_v14) :=
  (StableHlo.after_of_forall_not_mem (b := Proc.devRef .tc main_v14) _ _ (by host_keeps [hostOps4]) : W9 m ρ c (Proc.devRef .tc main_v14) = W8 m ρ c (Proc.devRef .tc main_v14)).trans (main_v14_at8 m ρ c)
theorem main_v14_at10 : W10 m ρ c (Proc.devRef .tc main_v14) = W2 m ρ c (Proc.devRef .tc main_v14) :=
  (W10_of_ne m ρ c main_v14 (by decide) : W10 m ρ c (Proc.devRef .tc main_v14) = W9 m ρ c (Proc.devRef .tc main_v14)).trans (main_v14_at9 m ρ c)
theorem main_v14_at11 : W11 m ρ c (Proc.devRef .tc main_v14) = W2 m ρ c (Proc.devRef .tc main_v14) :=
  (StableHlo.after_of_forall_not_mem (b := Proc.devRef .tc main_v14) _ _ (by host_keeps [hostOps5]) : W11 m ρ c (Proc.devRef .tc main_v14) = W10 m ρ c (Proc.devRef .tc main_v14)).trans (main_v14_at10 m ρ c)
theorem main_v14_at12 : W12 m ρ c (Proc.devRef .tc main_v14) = W2 m ρ c (Proc.devRef .tc main_v14) :=
  (W12_of_ne m ρ c main_v14 (by decide) : W12 m ρ c (Proc.devRef .tc main_v14) = W11 m ρ c (Proc.devRef .tc main_v14)).trans (main_v14_at11 m ρ c)
theorem main_v14_at13 : W13 m ρ c (Proc.devRef .tc main_v14) = W2 m ρ c (Proc.devRef .tc main_v14) :=
  (W13_of_ne m ρ c main_v14 (by decide) : W13 m ρ c (Proc.devRef .tc main_v14) = W12 m ρ c (Proc.devRef .tc main_v14)).trans (main_v14_at12 m ρ c)

/-! ### Argument 0, as launched -/
theorem main_arg0_at1 : W1 m ρ c (Proc.devRef .tc main_arg0) = W0 m ρ c (Proc.devRef .tc main_arg0) :=
  (StableHlo.after_of_forall_not_mem (b := Proc.devRef .tc main_arg0) _ _ (by host_keeps [hostOps0]) : W1 m ρ c (Proc.devRef .tc main_arg0) = W0 m ρ c (Proc.devRef .tc main_arg0))
theorem main_arg0_at2 : W2 m ρ c (Proc.devRef .tc main_arg0) = W0 m ρ c (Proc.devRef .tc main_arg0) :=
  (StableHlo.after_of_forall_not_mem (b := Proc.devRef .tc main_arg0) _ _ (by host_keeps [hostOps0_1]) : W2 m ρ c (Proc.devRef .tc main_arg0) = W1 m ρ c (Proc.devRef .tc main_arg0)).trans (main_arg0_at1 m ρ c)

/-! ### Argument 1, as launched -/
theorem main_arg1_at1 : W1 m ρ c (Proc.devRef .tc main_arg1) = W0 m ρ c (Proc.devRef .tc main_arg1) :=
  (StableHlo.after_of_forall_not_mem (b := Proc.devRef .tc main_arg1) _ _ (by host_keeps [hostOps0]) : W1 m ρ c (Proc.devRef .tc main_arg1) = W0 m ρ c (Proc.devRef .tc main_arg1))
theorem main_arg1_at2 : W2 m ρ c (Proc.devRef .tc main_arg1) = W0 m ρ c (Proc.devRef .tc main_arg1) :=
  (StableHlo.after_of_forall_not_mem (b := Proc.devRef .tc main_arg1) _ _ (by host_keeps [hostOps0_1]) : W2 m ρ c (Proc.devRef .tc main_arg1) = W1 m ρ c (Proc.devRef .tc main_arg1)).trans (main_arg1_at1 m ρ c)

/-! ### Argument 2, as launched -/
theorem main_arg2_at1 : W1 m ρ c (Proc.devRef .tc main_arg2) = W0 m ρ c (Proc.devRef .tc main_arg2) :=
  (StableHlo.after_of_forall_not_mem (b := Proc.devRef .tc main_arg2) _ _ (by host_keeps [hostOps0]) : W1 m ρ c (Proc.devRef .tc main_arg2) = W0 m ρ c (Proc.devRef .tc main_arg2))
theorem main_arg2_at2 : W2 m ρ c (Proc.devRef .tc main_arg2) = W0 m ρ c (Proc.devRef .tc main_arg2) :=
  (StableHlo.after_of_forall_not_mem (b := Proc.devRef .tc main_arg2) _ _ (by host_keeps [hostOps0_1]) : W2 m ρ c (Proc.devRef .tc main_arg2) = W1 m ρ c (Proc.devRef .tc main_arg2)).trans (main_arg2_at1 m ρ c)
theorem main_arg2_at3 : W3 m ρ c (Proc.devRef .tc main_arg2) = W0 m ρ c (Proc.devRef .tc main_arg2) :=
  (W3_of_ne m ρ c main_arg2 (by decide) : W3 m ρ c (Proc.devRef .tc main_arg2) = W2 m ρ c (Proc.devRef .tc main_arg2)).trans (main_arg2_at2 m ρ c)
theorem main_arg2_at4 : W4 m ρ c (Proc.devRef .tc main_arg2) = W0 m ρ c (Proc.devRef .tc main_arg2) :=
  (StableHlo.after_of_forall_not_mem (b := Proc.devRef .tc main_arg2) _ _ (by host_keeps [hostOps1]) : W4 m ρ c (Proc.devRef .tc main_arg2) = W3 m ρ c (Proc.devRef .tc main_arg2)).trans (main_arg2_at3 m ρ c)
theorem main_arg2_at5 : W5 m ρ c (Proc.devRef .tc main_arg2) = W0 m ρ c (Proc.devRef .tc main_arg2) :=
  (W5_of_ne m ρ c main_arg2 (by decide) : W5 m ρ c (Proc.devRef .tc main_arg2) = W4 m ρ c (Proc.devRef .tc main_arg2)).trans (main_arg2_at4 m ρ c)

/-! ### Argument 3, as launched -/
theorem main_arg3_at1 : W1 m ρ c (Proc.devRef .tc main_arg3) = W0 m ρ c (Proc.devRef .tc main_arg3) :=
  (StableHlo.after_of_forall_not_mem (b := Proc.devRef .tc main_arg3) _ _ (by host_keeps [hostOps0]) : W1 m ρ c (Proc.devRef .tc main_arg3) = W0 m ρ c (Proc.devRef .tc main_arg3))
theorem main_arg3_at2 : W2 m ρ c (Proc.devRef .tc main_arg3) = W0 m ρ c (Proc.devRef .tc main_arg3) :=
  (StableHlo.after_of_forall_not_mem (b := Proc.devRef .tc main_arg3) _ _ (by host_keeps [hostOps0_1]) : W2 m ρ c (Proc.devRef .tc main_arg3) = W1 m ρ c (Proc.devRef .tc main_arg3)).trans (main_arg3_at1 m ρ c)
theorem main_arg3_at3 : W3 m ρ c (Proc.devRef .tc main_arg3) = W0 m ρ c (Proc.devRef .tc main_arg3) :=
  (W3_of_ne m ρ c main_arg3 (by decide) : W3 m ρ c (Proc.devRef .tc main_arg3) = W2 m ρ c (Proc.devRef .tc main_arg3)).trans (main_arg3_at2 m ρ c)
theorem main_arg3_at4 : W4 m ρ c (Proc.devRef .tc main_arg3) = W0 m ρ c (Proc.devRef .tc main_arg3) :=
  (StableHlo.after_of_forall_not_mem (b := Proc.devRef .tc main_arg3) _ _ (by host_keeps [hostOps1]) : W4 m ρ c (Proc.devRef .tc main_arg3) = W3 m ρ c (Proc.devRef .tc main_arg3)).trans (main_arg3_at3 m ρ c)
theorem main_arg3_at5 : W5 m ρ c (Proc.devRef .tc main_arg3) = W0 m ρ c (Proc.devRef .tc main_arg3) :=
  (W5_of_ne m ρ c main_arg3 (by decide) : W5 m ρ c (Proc.devRef .tc main_arg3) = W4 m ρ c (Proc.devRef .tc main_arg3)).trans (main_arg3_at4 m ρ c)
theorem main_arg3_at6 : W6 m ρ c (Proc.devRef .tc main_arg3) = W0 m ρ c (Proc.devRef .tc main_arg3) :=
  (StableHlo.after_of_forall_not_mem (b := Proc.devRef .tc main_arg3) _ _ (by host_keeps [hostOps2]) : W6 m ρ c (Proc.devRef .tc main_arg3) = W5 m ρ c (Proc.devRef .tc main_arg3)).trans (main_arg3_at5 m ρ c)
theorem main_arg3_at7 : W7 m ρ c (Proc.devRef .tc main_arg3) = W0 m ρ c (Proc.devRef .tc main_arg3) :=
  (W7_of_ne m ρ c main_arg3 (by decide) : W7 m ρ c (Proc.devRef .tc main_arg3) = W6 m ρ c (Proc.devRef .tc main_arg3)).trans (main_arg3_at6 m ρ c)

/-! ### Argument 4, as launched -/
theorem main_arg4_at1 : W1 m ρ c (Proc.devRef .tc main_arg4) = W0 m ρ c (Proc.devRef .tc main_arg4) :=
  (StableHlo.after_of_forall_not_mem (b := Proc.devRef .tc main_arg4) _ _ (by host_keeps [hostOps0]) : W1 m ρ c (Proc.devRef .tc main_arg4) = W0 m ρ c (Proc.devRef .tc main_arg4))
theorem main_arg4_at2 : W2 m ρ c (Proc.devRef .tc main_arg4) = W0 m ρ c (Proc.devRef .tc main_arg4) :=
  (StableHlo.after_of_forall_not_mem (b := Proc.devRef .tc main_arg4) _ _ (by host_keeps [hostOps0_1]) : W2 m ρ c (Proc.devRef .tc main_arg4) = W1 m ρ c (Proc.devRef .tc main_arg4)).trans (main_arg4_at1 m ρ c)
theorem main_arg4_at3 : W3 m ρ c (Proc.devRef .tc main_arg4) = W0 m ρ c (Proc.devRef .tc main_arg4) :=
  (W3_of_ne m ρ c main_arg4 (by decide) : W3 m ρ c (Proc.devRef .tc main_arg4) = W2 m ρ c (Proc.devRef .tc main_arg4)).trans (main_arg4_at2 m ρ c)
theorem main_arg4_at4 : W4 m ρ c (Proc.devRef .tc main_arg4) = W0 m ρ c (Proc.devRef .tc main_arg4) :=
  (StableHlo.after_of_forall_not_mem (b := Proc.devRef .tc main_arg4) _ _ (by host_keeps [hostOps1]) : W4 m ρ c (Proc.devRef .tc main_arg4) = W3 m ρ c (Proc.devRef .tc main_arg4)).trans (main_arg4_at3 m ρ c)
theorem main_arg4_at5 : W5 m ρ c (Proc.devRef .tc main_arg4) = W0 m ρ c (Proc.devRef .tc main_arg4) :=
  (W5_of_ne m ρ c main_arg4 (by decide) : W5 m ρ c (Proc.devRef .tc main_arg4) = W4 m ρ c (Proc.devRef .tc main_arg4)).trans (main_arg4_at4 m ρ c)
theorem main_arg4_at6 : W6 m ρ c (Proc.devRef .tc main_arg4) = W0 m ρ c (Proc.devRef .tc main_arg4) :=
  (StableHlo.after_of_forall_not_mem (b := Proc.devRef .tc main_arg4) _ _ (by host_keeps [hostOps2]) : W6 m ρ c (Proc.devRef .tc main_arg4) = W5 m ρ c (Proc.devRef .tc main_arg4)).trans (main_arg4_at5 m ρ c)
theorem main_arg4_at7 : W7 m ρ c (Proc.devRef .tc main_arg4) = W0 m ρ c (Proc.devRef .tc main_arg4) :=
  (W7_of_ne m ρ c main_arg4 (by decide) : W7 m ρ c (Proc.devRef .tc main_arg4) = W6 m ρ c (Proc.devRef .tc main_arg4)).trans (main_arg4_at6 m ρ c)
theorem main_arg4_at8 : W8 m ρ c (Proc.devRef .tc main_arg4) = W0 m ρ c (Proc.devRef .tc main_arg4) :=
  (W8_of_ne m ρ c main_arg4 (by decide) : W8 m ρ c (Proc.devRef .tc main_arg4) = W7 m ρ c (Proc.devRef .tc main_arg4)).trans (main_arg4_at7 m ρ c)
theorem main_arg4_at9 : W9 m ρ c (Proc.devRef .tc main_arg4) = W0 m ρ c (Proc.devRef .tc main_arg4) :=
  (StableHlo.after_of_forall_not_mem (b := Proc.devRef .tc main_arg4) _ _ (by host_keeps [hostOps4]) : W9 m ρ c (Proc.devRef .tc main_arg4) = W8 m ρ c (Proc.devRef .tc main_arg4)).trans (main_arg4_at8 m ρ c)
theorem main_arg4_at10 : W10 m ρ c (Proc.devRef .tc main_arg4) = W0 m ρ c (Proc.devRef .tc main_arg4) :=
  (W10_of_ne m ρ c main_arg4 (by decide) : W10 m ρ c (Proc.devRef .tc main_arg4) = W9 m ρ c (Proc.devRef .tc main_arg4)).trans (main_arg4_at9 m ρ c)

/-! ### Argument 5, as launched -/
theorem main_arg5_at1 : W1 m ρ c (Proc.devRef .tc main_arg5) = W0 m ρ c (Proc.devRef .tc main_arg5) :=
  (StableHlo.after_of_forall_not_mem (b := Proc.devRef .tc main_arg5) _ _ (by host_keeps [hostOps0]) : W1 m ρ c (Proc.devRef .tc main_arg5) = W0 m ρ c (Proc.devRef .tc main_arg5))
theorem main_arg5_at2 : W2 m ρ c (Proc.devRef .tc main_arg5) = W0 m ρ c (Proc.devRef .tc main_arg5) :=
  (StableHlo.after_of_forall_not_mem (b := Proc.devRef .tc main_arg5) _ _ (by host_keeps [hostOps0_1]) : W2 m ρ c (Proc.devRef .tc main_arg5) = W1 m ρ c (Proc.devRef .tc main_arg5)).trans (main_arg5_at1 m ρ c)
theorem main_arg5_at3 : W3 m ρ c (Proc.devRef .tc main_arg5) = W0 m ρ c (Proc.devRef .tc main_arg5) :=
  (W3_of_ne m ρ c main_arg5 (by decide) : W3 m ρ c (Proc.devRef .tc main_arg5) = W2 m ρ c (Proc.devRef .tc main_arg5)).trans (main_arg5_at2 m ρ c)
theorem main_arg5_at4 : W4 m ρ c (Proc.devRef .tc main_arg5) = W0 m ρ c (Proc.devRef .tc main_arg5) :=
  (StableHlo.after_of_forall_not_mem (b := Proc.devRef .tc main_arg5) _ _ (by host_keeps [hostOps1]) : W4 m ρ c (Proc.devRef .tc main_arg5) = W3 m ρ c (Proc.devRef .tc main_arg5)).trans (main_arg5_at3 m ρ c)
theorem main_arg5_at5 : W5 m ρ c (Proc.devRef .tc main_arg5) = W0 m ρ c (Proc.devRef .tc main_arg5) :=
  (W5_of_ne m ρ c main_arg5 (by decide) : W5 m ρ c (Proc.devRef .tc main_arg5) = W4 m ρ c (Proc.devRef .tc main_arg5)).trans (main_arg5_at4 m ρ c)
theorem main_arg5_at6 : W6 m ρ c (Proc.devRef .tc main_arg5) = W0 m ρ c (Proc.devRef .tc main_arg5) :=
  (StableHlo.after_of_forall_not_mem (b := Proc.devRef .tc main_arg5) _ _ (by host_keeps [hostOps2]) : W6 m ρ c (Proc.devRef .tc main_arg5) = W5 m ρ c (Proc.devRef .tc main_arg5)).trans (main_arg5_at5 m ρ c)
theorem main_arg5_at7 : W7 m ρ c (Proc.devRef .tc main_arg5) = W0 m ρ c (Proc.devRef .tc main_arg5) :=
  (W7_of_ne m ρ c main_arg5 (by decide) : W7 m ρ c (Proc.devRef .tc main_arg5) = W6 m ρ c (Proc.devRef .tc main_arg5)).trans (main_arg5_at6 m ρ c)
theorem main_arg5_at8 : W8 m ρ c (Proc.devRef .tc main_arg5) = W0 m ρ c (Proc.devRef .tc main_arg5) :=
  (W8_of_ne m ρ c main_arg5 (by decide) : W8 m ρ c (Proc.devRef .tc main_arg5) = W7 m ρ c (Proc.devRef .tc main_arg5)).trans (main_arg5_at7 m ρ c)
theorem main_arg5_at9 : W9 m ρ c (Proc.devRef .tc main_arg5) = W0 m ρ c (Proc.devRef .tc main_arg5) :=
  (StableHlo.after_of_forall_not_mem (b := Proc.devRef .tc main_arg5) _ _ (by host_keeps [hostOps4]) : W9 m ρ c (Proc.devRef .tc main_arg5) = W8 m ρ c (Proc.devRef .tc main_arg5)).trans (main_arg5_at8 m ρ c)
theorem main_arg5_at10 : W10 m ρ c (Proc.devRef .tc main_arg5) = W0 m ρ c (Proc.devRef .tc main_arg5) :=
  (W10_of_ne m ρ c main_arg5 (by decide) : W10 m ρ c (Proc.devRef .tc main_arg5) = W9 m ρ c (Proc.devRef .tc main_arg5)).trans (main_arg5_at9 m ρ c)
theorem main_arg5_at11 : W11 m ρ c (Proc.devRef .tc main_arg5) = W0 m ρ c (Proc.devRef .tc main_arg5) :=
  (StableHlo.after_of_forall_not_mem (b := Proc.devRef .tc main_arg5) _ _ (by host_keeps [hostOps5]) : W11 m ρ c (Proc.devRef .tc main_arg5) = W10 m ρ c (Proc.devRef .tc main_arg5)).trans (main_arg5_at10 m ρ c)
theorem main_arg5_at12 : W12 m ρ c (Proc.devRef .tc main_arg5) = W0 m ρ c (Proc.devRef .tc main_arg5) :=
  (W12_of_ne m ρ c main_arg5 (by decide) : W12 m ρ c (Proc.devRef .tc main_arg5) = W11 m ρ c (Proc.devRef .tc main_arg5)).trans (main_arg5_at11 m ρ c)

/-! ### Argument 6, as launched -/
theorem main_arg6_at1 : W1 m ρ c (Proc.devRef .tc main_arg6) = W0 m ρ c (Proc.devRef .tc main_arg6) :=
  (StableHlo.after_of_forall_not_mem (b := Proc.devRef .tc main_arg6) _ _ (by host_keeps [hostOps0]) : W1 m ρ c (Proc.devRef .tc main_arg6) = W0 m ρ c (Proc.devRef .tc main_arg6))
theorem main_arg6_at2 : W2 m ρ c (Proc.devRef .tc main_arg6) = W0 m ρ c (Proc.devRef .tc main_arg6) :=
  (StableHlo.after_of_forall_not_mem (b := Proc.devRef .tc main_arg6) _ _ (by host_keeps [hostOps0_1]) : W2 m ρ c (Proc.devRef .tc main_arg6) = W1 m ρ c (Proc.devRef .tc main_arg6)).trans (main_arg6_at1 m ρ c)
theorem main_arg6_at3 : W3 m ρ c (Proc.devRef .tc main_arg6) = W0 m ρ c (Proc.devRef .tc main_arg6) :=
  (W3_of_ne m ρ c main_arg6 (by decide) : W3 m ρ c (Proc.devRef .tc main_arg6) = W2 m ρ c (Proc.devRef .tc main_arg6)).trans (main_arg6_at2 m ρ c)
theorem main_arg6_at4 : W4 m ρ c (Proc.devRef .tc main_arg6) = W0 m ρ c (Proc.devRef .tc main_arg6) :=
  (StableHlo.after_of_forall_not_mem (b := Proc.devRef .tc main_arg6) _ _ (by host_keeps [hostOps1]) : W4 m ρ c (Proc.devRef .tc main_arg6) = W3 m ρ c (Proc.devRef .tc main_arg6)).trans (main_arg6_at3 m ρ c)
theorem main_arg6_at5 : W5 m ρ c (Proc.devRef .tc main_arg6) = W0 m ρ c (Proc.devRef .tc main_arg6) :=
  (W5_of_ne m ρ c main_arg6 (by decide) : W5 m ρ c (Proc.devRef .tc main_arg6) = W4 m ρ c (Proc.devRef .tc main_arg6)).trans (main_arg6_at4 m ρ c)
theorem main_arg6_at6 : W6 m ρ c (Proc.devRef .tc main_arg6) = W0 m ρ c (Proc.devRef .tc main_arg6) :=
  (StableHlo.after_of_forall_not_mem (b := Proc.devRef .tc main_arg6) _ _ (by host_keeps [hostOps2]) : W6 m ρ c (Proc.devRef .tc main_arg6) = W5 m ρ c (Proc.devRef .tc main_arg6)).trans (main_arg6_at5 m ρ c)
theorem main_arg6_at7 : W7 m ρ c (Proc.devRef .tc main_arg6) = W0 m ρ c (Proc.devRef .tc main_arg6) :=
  (W7_of_ne m ρ c main_arg6 (by decide) : W7 m ρ c (Proc.devRef .tc main_arg6) = W6 m ρ c (Proc.devRef .tc main_arg6)).trans (main_arg6_at6 m ρ c)
theorem main_arg6_at8 : W8 m ρ c (Proc.devRef .tc main_arg6) = W0 m ρ c (Proc.devRef .tc main_arg6) :=
  (W8_of_ne m ρ c main_arg6 (by decide) : W8 m ρ c (Proc.devRef .tc main_arg6) = W7 m ρ c (Proc.devRef .tc main_arg6)).trans (main_arg6_at7 m ρ c)
theorem main_arg6_at9 : W9 m ρ c (Proc.devRef .tc main_arg6) = W0 m ρ c (Proc.devRef .tc main_arg6) :=
  (StableHlo.after_of_forall_not_mem (b := Proc.devRef .tc main_arg6) _ _ (by host_keeps [hostOps4]) : W9 m ρ c (Proc.devRef .tc main_arg6) = W8 m ρ c (Proc.devRef .tc main_arg6)).trans (main_arg6_at8 m ρ c)
theorem main_arg6_at10 : W10 m ρ c (Proc.devRef .tc main_arg6) = W0 m ρ c (Proc.devRef .tc main_arg6) :=
  (W10_of_ne m ρ c main_arg6 (by decide) : W10 m ρ c (Proc.devRef .tc main_arg6) = W9 m ρ c (Proc.devRef .tc main_arg6)).trans (main_arg6_at9 m ρ c)
theorem main_arg6_at11 : W11 m ρ c (Proc.devRef .tc main_arg6) = W0 m ρ c (Proc.devRef .tc main_arg6) :=
  (StableHlo.after_of_forall_not_mem (b := Proc.devRef .tc main_arg6) _ _ (by host_keeps [hostOps5]) : W11 m ρ c (Proc.devRef .tc main_arg6) = W10 m ρ c (Proc.devRef .tc main_arg6)).trans (main_arg6_at10 m ρ c)
theorem main_arg6_at12 : W12 m ρ c (Proc.devRef .tc main_arg6) = W0 m ρ c (Proc.devRef .tc main_arg6) :=
  (W12_of_ne m ρ c main_arg6 (by decide) : W12 m ρ c (Proc.devRef .tc main_arg6) = W11 m ρ c (Proc.devRef .tc main_arg6)).trans (main_arg6_at11 m ρ c)
theorem main_arg6_at13 : W13 m ρ c (Proc.devRef .tc main_arg6) = W0 m ρ c (Proc.devRef .tc main_arg6) :=
  (W13_of_ne m ρ c main_arg6 (by decide) : W13 m ρ c (Proc.devRef .tc main_arg6) = W12 m ρ c (Proc.devRef .tc main_arg6)).trans (main_arg6_at12 m ρ c)
theorem main_arg6_at14 : W14 m ρ c (Proc.devRef .tc main_arg6) = W0 m ρ c (Proc.devRef .tc main_arg6) :=
  (StableHlo.after_of_forall_not_mem (b := Proc.devRef .tc main_arg6) _ _ (by host_keeps [hostOps7]) : W14 m ρ c (Proc.devRef .tc main_arg6) = W13 m ρ c (Proc.devRef .tc main_arg6)).trans (main_arg6_at13 m ρ c)
theorem main_arg6_at15 : W15 m ρ c (Proc.devRef .tc main_arg6) = W0 m ρ c (Proc.devRef .tc main_arg6) :=
  (W15_of_ne m ρ c main_arg6 (by decide) : W15 m ρ c (Proc.devRef .tc main_arg6) = W14 m ρ c (Proc.devRef .tc main_arg6)).trans (main_arg6_at14 m ρ c)

/-! ### Argument 7, as launched -/
theorem main_arg7_at1 : W1 m ρ c (Proc.devRef .tc main_arg7) = W0 m ρ c (Proc.devRef .tc main_arg7) :=
  (StableHlo.after_of_forall_not_mem (b := Proc.devRef .tc main_arg7) _ _ (by host_keeps [hostOps0]) : W1 m ρ c (Proc.devRef .tc main_arg7) = W0 m ρ c (Proc.devRef .tc main_arg7))
theorem main_arg7_at2 : W2 m ρ c (Proc.devRef .tc main_arg7) = W0 m ρ c (Proc.devRef .tc main_arg7) :=
  (StableHlo.after_of_forall_not_mem (b := Proc.devRef .tc main_arg7) _ _ (by host_keeps [hostOps0_1]) : W2 m ρ c (Proc.devRef .tc main_arg7) = W1 m ρ c (Proc.devRef .tc main_arg7)).trans (main_arg7_at1 m ρ c)

/-- The launch contents are the launch memory. -/
theorem w0_arg (b : Ref sig .tc) : W0 m ρ c (Proc.devRef .tc b) = m ((c.tc : Thread nD τ).loc b) := rfl

/-! ### What the host operations before the first region compute from the edge list -/

/-- The edges' sources followed by the nodes. -/
theorem w2_src : W2 m ρ c (Proc.devRef .tc main_v3) = Cert.Gcn.srcOf (m ((c.tc : Thread nD τ).loc main_arg7)) := by
  refine (StableHlo.after_of_forall_not_mem (b := Proc.devRef .tc main_v3) _ _ (by host_keeps [hostOps0_1]) : W2 m ρ c (Proc.devRef .tc main_v3) = W1 m ρ c (Proc.devRef .tc main_v3)).trans ?_
  show StableHlo.after hostOps0 (W0 m ρ c) (Proc.devRef .tc main_v3) = _
  after_results
  rfl

/-- The edges' destinations followed by the nodes. -/
theorem w2_dst : W2 m ρ c (Proc.devRef .tc main_v6) = Cert.Gcn.dstOf (m ((c.tc : Thread nD τ).loc main_arg7)) := by
  refine (StableHlo.after_of_forall_not_mem (b := Proc.devRef .tc main_v6) _ _ (by host_keeps [hostOps0_1]) : W2 m ρ c (Proc.devRef .tc main_v6) = W1 m ρ c (Proc.devRef .tc main_v6)).trans ?_
  show StableHlo.after hostOps0 (W0 m ρ c) (Proc.devRef .tc main_v6) = _
  after_results
  rfl

end Cert.KernelIdeal.Chain

end
-- ==== Proof.ChainDinv.lean ====
/-
  The nodes' inverse square-root degrees, as the host operations before the first region compute them from the edge
  list: the degree of a node is the sum of ones over the edges that end in it; its inverse square root is taken where
  the degree is positive, and zero is put elsewhere.
-/
import proofs.«111753_j24386824306774_1_alg».proof.Proof.ChainBase

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- Where the degree is positive. -/
theorem w1_pos : W1 m ρ c (Proc.devRef .tc main_v12)
    = cmpf .ogt (Cert.Gcn.degOf (m ((c.tc : Thread nD τ).loc main_arg7))) (broadcastInDim Cert.ReferenceIdeal.S100000 ![] Cert.ReferenceIdeal.Facts₀.bcast_S_S100000 (constant (F := Ideal) Cert.ReferenceIdeal.S_ .f32 0x00000000#32)) := by
  show StableHlo.after hostOps0 (W0 m ρ c) (Proc.devRef .tc main_v12) = _
  after_results
  all_goals rfl

/-- The inverse square root of the degree. -/
theorem w1_rsqrt : W1 m ρ c (Proc.devRef .tc main_v13) = Host.rsqrt (F := Ideal) (Cert.Gcn.degOf (m ((c.tc : Thread nD τ).loc main_arg7))) := by
  show StableHlo.after hostOps0 (W0 m ρ c) (Proc.devRef .tc main_v13) = _
  after_results
  all_goals rfl

/-- The zero put where the degree is not positive. -/
theorem w1_zero : W1 m ρ c (Proc.devRef .tc main_cst_2) = constant (F := Ideal) Cert.ReferenceIdeal.S_ .f32 0x00000000#32 := by
  show StableHlo.after hostOps0 (W0 m ρ c) (Proc.devRef .tc main_cst_2) = _
  after_results
  all_goals rfl

/-- The selection, over the three buffers it reads. -/
theorem w2_sel : W2 m ρ c (Proc.devRef .tc main_v14)
    = select (W1 m ρ c (Proc.devRef .tc main_v12)) (W1 m ρ c (Proc.devRef .tc main_v13))
        (broadcastInDim S100000 ![] bcast_S_S100000 (id (W1 m ρ c (Proc.devRef .tc main_cst_2)))) := by
  show StableHlo.after hostOps0_1 (W1 m ρ c) (Proc.devRef .tc main_v14) = _
  generalize W1 m ρ c = Vv
  after_results_simp
  rfl

/-- The nodes' inverse square-root degrees: the selection between the two. -/
theorem w2_dinv : W2 m ρ c (Proc.devRef .tc main_v14) = Cert.Gcn.dinvOf (m ((c.tc : Thread nD τ).loc main_arg7)) := by
  rw [w2_sel m ρ c, w1_pos m ρ c, w1_rsqrt m ρ c, w1_zero m ρ c]
  rfl

end Cert.KernelIdeal.Chain

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«111753_j24386824306774_1_alg».proof.Proof.LibMatmulPlain
import proofs.«111753_j24386824306774_1_alg».proof.Proof.LibDotsNT
import proofs.«111753_j24386824306774_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.GcnSpec.lean ====
/-
  One graph-convolution layer, piece by piece, on the extended reals.

  A layer takes node features x : [N, k], a weight matrix W : [k, n], one scale per edge s : [E, 1] and a bias row
  b : [1, n].  It forms the product x W, gathers one product row per edge, multiplies row e by s(e, 0), adds the rows
  up per destination node and finally adds the bias per column and takes the maximum with zero.  The gather and the
  sum per node are the same two operations in both programs; the three dense steps are spelt differently, per tile
  of rows on one side and on whole arrays on the other.  This file states each dense step once as a function of
  the arrays, index by index, shows that both spellings are that function, and that a block of rows of the function
  of the whole arrays is the function of the block of rows.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«111753_j24386824306774_1_alg».proof.Proof.LibDenseLayer

noncomputable section

open scoped BigOperators

namespace Cert.Gcn

open Idealize.ShloMosaic Idealize.ShloMosaic.ValueIdx

variable {a k n : ℕ}

/-- Row r of an [a, n] array scaled by the column entry s(r, 0). -/
def scaleRows (h : (⟨2, ![a, n]⟩ : Shape).Idx → EReal) (s : (⟨2, ![a, 1]⟩ : Shape).Idx → EReal) :
    (⟨2, ![a, n]⟩ : Shape).Idx → EReal :=
  fun i => h i * s (ix2 (i 0) (0 : Fin 1))

/-- The bias b(0, q) added in column q, then the maximum with zero (the zero word of the 32-bit format). -/
def biasRelu (x : (⟨2, ![a, n]⟩ : Shape).Idx → EReal) (b : (⟨2, ![1, n]⟩ : Shape).Idx → EReal) :
    (⟨2, ![a, n]⟩ : Shape).Idx → EReal :=
  fun i => max (x i + b (ix2 (0 : Fin 1) (i 1))) (Ideal.ofBits .f32 0x00000000#32)

theorem scaleRows_ix2 (h : (⟨2, ![a, n]⟩ : Shape).Idx → EReal) (s : (⟨2, ![a, 1]⟩ : Shape).Idx → EReal) (r : Fin a) (q : Fin n) :
    scaleRows h s (ix2 r q) = h (ix2 r q) * s (ix2 r (0 : Fin 1)) := rfl

theorem biasRelu_ix2 (x : (⟨2, ![a, n]⟩ : Shape).Idx → EReal) (b : (⟨2, ![1, n]⟩ : Shape).Idx → EReal) (r : Fin a) (q : Fin n) :
    biasRelu x b (ix2 r q) = max (x (ix2 r q) + b (ix2 (0 : Fin 1) q)) (Ideal.ofBits .f32 0x00000000#32) := rfl

/-! ## The tile's spellings -/

/-- The tile scales its rows with the column cast to its own shape and spread over the columns. -/
theorem scale_tile (x0 : FVec Ideal ⟨2, ![a, n]⟩ .f32) (x1 : FVec Ideal ⟨2, ![a, 1]⟩ .f32)
    (hc0 : (⟨2, ![a, n]⟩ : Shape).ShapeCasts ⟨2, ![a, n]⟩) (hc1 : (⟨2, ![a, 1]⟩ : Shape).ShapeCasts ⟨2, ![a, 1]⟩)
    (hb : (⟨2, ![a, 1]⟩ : Shape).Broadcasts ⟨2, ![a, n]⟩) :
    mulf (shapeCast ⟨2, ![a, n]⟩ x0 hc0) (broadcastTo ⟨2, ![a, n]⟩ (shapeCast ⟨2, ![a, 1]⟩ x1 hc1) hb) = scaleRows x0 x1 := by
  funext j
  obtain ⟨r, q, rfl⟩ : ∃ (r : Fin a) (q : Fin n), j = ix2 r q := ⟨j 0, j 1, eq_ix2 j⟩
  rw [mulf_apply, Cert.LibKeepdims.broadcastTo_a1_ab_apply, shapeCast_self, shapeCast_self, scaleRows_ix2]

/-- The tile adds the bias row, cast to its own shape and spread over the rows, and takes the maximum with a
    splat zero. -/
theorem bias_tile (x0 : FVec Ideal ⟨2, ![a, n]⟩ .f32) (x1 : FVec Ideal ⟨2, ![1, n]⟩ .f32)
    (hc0 : (⟨2, ![a, n]⟩ : Shape).ShapeCasts ⟨2, ![a, n]⟩) (hc1 : (⟨2, ![1, n]⟩ : Shape).ShapeCasts ⟨2, ![1, n]⟩)
    (hb : (⟨2, ![1, n]⟩ : Shape).Broadcasts ⟨2, ![a, n]⟩) :
    maximumf (addf (shapeCast ⟨2, ![a, n]⟩ x0 hc0) (broadcastTo ⟨2, ![a, n]⟩ (shapeCast ⟨2, ![1, n]⟩ x1 hc1) hb))
        (broadcast ⟨2, ![a, n]⟩ (Scalar.ofBits (F := Ideal) .f32 0x00000000#32)) = biasRelu x0 x1 := by
  funext j
  obtain ⟨r, q, rfl⟩ : ∃ (r : Fin a) (q : Fin n), j = ix2 r q := ⟨j 0, j 1, eq_ix2 j⟩
  rw [maximumf_apply, addf_apply, Cert.LibKeepdims.row_spread_apply, shapeCast_self, biasRelu_ix2]
  rfl

/-! ## The host's spellings -/

/-- The host scales the rows with the column laid over the columns by broadcast_in_dim. -/
theorem scale_host (h : FVec Ideal ⟨2, ![a, n]⟩ .f32) (s : FVec Ideal ⟨2, ![a, 1]⟩ .f32)
    (hS : (⟨2, ![a, 1]⟩ : Shape).BroadcastsInDim ⟨2, ![a, n]⟩ ![0, 1]) :
    mulf h (broadcastInDim ⟨2, ![a, n]⟩ ![0, 1] hS s) = scaleRows h s := by
  funext j
  obtain ⟨r, q, rfl⟩ : ∃ (r : Fin a) (q : Fin n), j = ix2 r q := ⟨j 0, j 1, eq_ix2 j⟩
  rw [mulf_apply, Cert.Dense.bcast_col_apply, scaleRows_ix2]

/-- The host adds the bias row laid over the rows by broadcast_in_dim and takes the maximum with a zero scalar laid
    over the whole array. -/
theorem bias_host (x : FVec Ideal ⟨2, ![a, n]⟩ .f32) (b : FVec Ideal ⟨2, ![1, n]⟩ .f32)
    (hB : (⟨2, ![1, n]⟩ : Shape).BroadcastsInDim ⟨2, ![a, n]⟩ ![0, 1])
    (h0 : (⟨0, ![]⟩ : Shape).BroadcastsInDim ⟨2, ![a, n]⟩ ![]) :
    maximumf (addf x (broadcastInDim ⟨2, ![a, n]⟩ ![0, 1] hB b))
        (broadcastInDim ⟨2, ![a, n]⟩ ![] h0 (constant (F := Ideal) ⟨0, ![]⟩ .f32 0x00000000#32)) = biasRelu x b := by
  funext j
  obtain ⟨r, q, rfl⟩ : ∃ (r : Fin a) (q : Fin n), j = ix2 r q := ⟨j 0, j 1, eq_ix2 j⟩
  rw [maximumf_apply, addf_apply, Cert.Dense.bcast_row_apply, broadcastInDim_scalar_apply, biasRelu_ix2]
  rfl

/-! ## An entry of each function depends on one row of the row-wise operands only

  So the function of a block of rows, at an entry of the block, is the function of the whole arrays at the entry the
  block's entry sits at: it is enough that the operands agree along the row (and the column) the entry reads. -/

variable {A : ℕ}

/-- An entry of the product reads row `j 0` of the left operand and column `j 1` of the right one. -/
theorem prod_congr (x0 : (⟨2, ![a, k]⟩ : Shape).Idx → EReal) (W0 : (⟨2, ![k, n]⟩ : Shape).Idx → EReal)
    (x : (⟨2, ![A, k]⟩ : Shape).Idx → EReal) (W : (⟨2, ![k, n]⟩ : Shape).Idx → EReal)
    (j : (⟨2, ![a, n]⟩ : Shape).Idx) (J : (⟨2, ![A, n]⟩ : Shape).Idx)
    (hx : ∀ cc : Fin k, x0 (ix2 (j 0) cc) = x (ix2 (J 0) cc))
    (hW : ∀ cc : Fin k, W0 (ix2 cc (j 1)) = W (ix2 cc (J 1))) :
    Cert.Dense.prod x0 W0 j = Cert.Dense.prod x W J := by
  unfold Cert.Dense.prod
  exact Finset.sum_congr rfl fun cc _ => by rw [hx cc, hW cc]

/-- An entry of the scaled array reads the same entry of the rows and the scale of its row. -/
theorem scaleRows_congr (h0 : (⟨2, ![a, n]⟩ : Shape).Idx → EReal) (s0 : (⟨2, ![a, 1]⟩ : Shape).Idx → EReal)
    (h : (⟨2, ![A, n]⟩ : Shape).Idx → EReal) (s : (⟨2, ![A, 1]⟩ : Shape).Idx → EReal)
    (j : (⟨2, ![a, n]⟩ : Shape).Idx) (J : (⟨2, ![A, n]⟩ : Shape).Idx)
    (hh : h0 j = h J) (hs : s0 (ix2 (j 0) (0 : Fin 1)) = s (ix2 (J 0) (0 : Fin 1))) :
    scaleRows h0 s0 j = scaleRows h s J := by
  unfold scaleRows
  rw [hh, hs]

/-- An entry of the biased, rectified array reads the same entry of the array and the bias of its column. -/
theorem biasRelu_congr (x0 : (⟨2, ![a, n]⟩ : Shape).Idx → EReal) (b0 : (⟨2, ![1, n]⟩ : Shape).Idx → EReal)
    (x : (⟨2, ![A, n]⟩ : Shape).Idx → EReal) (b : (⟨2, ![1, n]⟩ : Shape).Idx → EReal)
    (j : (⟨2, ![a, n]⟩ : Shape).Idx) (J : (⟨2, ![A, n]⟩ : Shape).Idx)
    (hx : x0 j = x J) (hb : b0 (ix2 (0 : Fin 1) (j 1)) = b (ix2 (0 : Fin 1) (J 1))) :
    biasRelu x0 b0 j = biasRelu x b J := by
  unfold biasRelu
  rw [hx, hb]

end Cert.Gcn

end
-- ==== Proof.RegionMM0.lean ====
/-
  The first layer's product region: after it, its output array holds the product of the feature array and the weight
  matrix it was entered with, row block by row block.
-/
import proofs.«111753_j24386824306774_1_alg».proof.Proof.Gen.KernelIdeal.Frame
import proofs.«111753_j24386824306774_1_alg».proof.Proof.GcnSpec
import Idealize.ShloMosaic.Lib.Pipeline.Value

set_option maxRecDepth 16384

noncomputable section

namespace Cert.KernelIdeal.RegionMM0

open Cert.KernelIdeal Cert.KernelIdeal.Gen Idealize.ShloMosaic Idealize.ShloMosaic.TcCoe Idealize.SL.Sem
open Idealize.ShloMosaic.ValueIdx
open Idealize.ShloMosaic.Pipeline (Dat)

-- the buffer contents a region is entered from
variable (V : (c : Dev nD) → (b : Ref sig .tc) → Buf (Elt Ideal) ((c : Thread nD τ).loc b))

theorem hz : (![0, 0] : Fin 2 → Nat) = fun _ => 0 := funext fun a => by fin_cases a <;> rfl

/-! ## Region 0: the product of a block of 10000 rows with the weights -/

/-- The tile's value: the matrix unit's product, into a zero accumulator, of the two blocks rounded to bfloat16 is the
    product of the blocks on the extended reals. -/
theorem pay0 (x0 : FVec Ideal S10000x128 .f32) (x1 : FVec Ideal S128x128 .f32) :
    k0_pay1 (F := Ideal) x0 x1 = Cert.Dense.prod x0 x1 := by
  unfold k0_pay1
  exact Cert.Dense.matmul_eq_prod dot_S10000x128_S128x128_S10000x128_1_0_0_1_n_n rfl rfl rfl rfl rfl rfl x0 x1 bitsLt_bf16_f32

/-- Grid point t stages rows 10000 t, ..., 10000 t + 9999 of the left array and of the result, and the whole right
    array. -/
theorem idx0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is its block of rows of the product of the whole arrays: row r of the block is row
    10000 t + r of the left array against every column of the right one. -/
theorem flushed0 (c : Dev nD) (t : Fin cfg0.N) :
    (dat0 V c).flushed 2 t
      = ((cfg0.win 2).blk t).view.read (Elt Ideal) (Cert.Dense.prod (a := 100000) (k := 128) (n := 128) (V c main_arg0) (V c main_arg1)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [pay0]
  obtain ⟨e0, e1, e2, e3, e4, e5⟩ := idx0 t
  refine funext fun (j : S10000x128.Idx) => ?_
  show Cert.Dense.prod (a := 10000) (k := 128) (n := 128) (iblk0 V c 0 t) (iblk0 V c 1 t) j
    = Cert.Dense.prod (a := 100000) (k := 128) (n := 128) (V c main_arg0) (V c main_arg1) (((cfg0.win 2).blk t).view.emb j)
  refine Cert.Gcn.prod_congr _ _ _ _ _ _ (fun cc => congrArg (V c main_arg0) (funext fun a => Fin.ext ?_)) (fun cc => congrArg (V c main_arg1) (funext fun a => Fin.ext ?_))
  · match a with
    | ⟨0, _⟩ => show win0_0.index t (0 : Fin 2) * 10000 + 1 * (j 0).val = win0_2.index t (0 : Fin 2) * 10000 + 1 * (j 0).val; rw [e0]
    | ⟨1, _⟩ => show win0_0.index t (1 : Fin 2) * 128 + 1 * cc.val = cc.val; rw [e1]; omega
  · match a with
    | ⟨0, _⟩ => show win0_1.index t (0 : Fin 2) * 128 + 1 * cc.val = cc.val; rw [e2]; omega
    | ⟨1, _⟩ => show win0_1.index t (1 : Fin 2) * 128 + 1 * (j 1).val = win0_2.index t (1 : Fin 2) * 128 + 1 * (j 1).val; rw [e3, e5]

/-- An index of the result is in point t's block iff, on each axis, it lies in the block's range. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v15).slice (win0_2.rect t)).set ↔ _
  rw [View.set_slice_whole, Rect.mem_set_unit]
  exact Iff.rfl

/-- Row i of the result is written by grid point i / 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_2 _, ?_⟩
  rw [mem_blk0]
  obtain ⟨e0, e1, e2, e3, e4, e5⟩ := idx0 ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 128 ≤ (i 1).val ∧ (i 1).val < win0_2.index _ (1 : Fin 2) * 128 + 128
    rw [e5]; omega

/-- After the region its output array is the product of the two arrays it was entered with. -/
theorem final0 (c : Dev nD) :
    (dat0 V c).arrAt 2 cfg0.N = Cert.Dense.prod (a := 100000) (k := 128) (n := 128) (V c main_arg0) (V c main_arg1) :=
  (dat0 V c).arrAt_eq_of_cover 2 _ (fun t _ => flushed0 V c t) (cover0)

end Cert.KernelIdeal.RegionMM0

end
-- ==== Proof.RegionSC1.lean ====
/-
  The first layer's scaling region: after it, its output array holds the gathered rows it was entered with, each
  multiplied by its edge's scale, row block by row block.
-/
import proofs.«111753_j24386824306774_1_alg».proof.Proof.Gen.KernelIdeal.Frame
import proofs.«111753_j24386824306774_1_alg».proof.Proof.GcnSpec
import Idealize.ShloMosaic.Lib.Pipeline.Value

set_option maxRecDepth 16384

noncomputable section

namespace Cert.KernelIdeal.RegionSC1

open Cert.KernelIdeal Cert.KernelIdeal.Gen Idealize.ShloMosaic Idealize.ShloMosaic.TcCoe Idealize.SL.Sem
open Idealize.ShloMosaic.ValueIdx
open Idealize.ShloMosaic.Pipeline (Dat)

-- the buffer contents a region is entered from
variable (V : (c : Dev nD) → (b : Ref sig .tc) → Buf (Elt Ideal) ((c : Thread nD τ).loc b))

theorem hz : (![0, 0] : Fin 2 → Nat) = fun _ => 0 := funext fun a => by fin_cases a <;> rfl

/-! ## Region 1: a block of 10000 edge rows, each scaled by its edge's scale -/

/-- The tile's value: row r of the block times the block's column entry of row r. -/
theorem pay1 (x0 : FVec Ideal S10000x128 .f32) (x1 : FVec Ideal S10000x1 .f32) :
    k1_pay1 (F := Ideal) x0 x1 = Cert.Gcn.scaleRows x0 x1 := by
  unfold k1_pay1
  exact Cert.Gcn.scale_tile x0 x1 shapeCasts_S10000x128_S10000x128 shapeCasts_S10000x1_S10000x1 broadcasts_S10000x1_S10000x128

/-- Grid point t stages rows 10000 t, ..., 10000 t + 9999 of the rows, of the scale column and of the result. -/
theorem idx1 : ∀ t : Fin cfg1.N, win1_0.index t (0 : Fin 2) = win1_2.index t (0 : Fin 2) ∧ win1_0.index t (1 : Fin 2) = win1_2.index t (1 : Fin 2)
    ∧ win1_1.index t (0 : Fin 2) = win1_2.index t (0 : Fin 2) ∧ win1_1.index t (1 : Fin 2) = 0
    ∧ win1_2.index t (0 : Fin 2) = t.val ∧ win1_2.index t (1 : Fin 2) = 0 :=
  (by decide +kernel : ∀ t : Fin grid1.N, _)

/-- What grid point t writes back is its block of rows of the scaled array: row r of the block is row 10000 t + r of
    the rows times entry 10000 t + r of the scale column. -/
theorem flushed1 (c : Dev nD) (t : Fin cfg1.N) :
    (dat1 V c).flushed 2 t
      = ((cfg1.win 2).blk t).view.read (Elt Ideal) (Cert.Gcn.scaleRows (a := 1700000) (n := 128) (V c main_v22) (V c main_v38)) := by
  show (cfg1.win 2).cut (grid1.coords t) ((dat1 V c).after 2 t) = _
  rw [after1_2]
  unfold out1_2
  rw [View.canon_unit_zero hz]
  simp only [View.ld_unit_zero (S := S10000x128) hz, View.ld_unit_zero (S := S10000x1) hz]
  rw [pay1]
  obtain ⟨e0, e1, e2, e3, e4, e5⟩ := idx1 t
  refine funext fun (j : S10000x128.Idx) => ?_
  show Cert.Gcn.scaleRows (a := 10000) (n := 128) (iblk1 V c 0 t) (iblk1 V c 1 t) j
    = Cert.Gcn.scaleRows (a := 1700000) (n := 128) (V c main_v22) (V c main_v38) (((cfg1.win 2).blk t).view.emb j)
  refine Cert.Gcn.scaleRows_congr _ _ _ _ _ _ (congrArg (V c main_v22) (funext fun a => Fin.ext ?_)) (congrArg (V c main_v38) (funext fun a => Fin.ext ?_))
  · match a with
    | ⟨0, _⟩ => show win1_0.index t (0 : Fin 2) * 10000 + 1 * (j 0).val = win1_2.index t (0 : Fin 2) * 10000 + 1 * (j 0).val; rw [e0]
    | ⟨1, _⟩ => show win1_0.index t (1 : Fin 2) * 128 + 1 * (j 1).val = win1_2.index t (1 : Fin 2) * 128 + 1 * (j 1).val; rw [e1]
  · match a with
    | ⟨0, _⟩ => show win1_1.index t (0 : Fin 2) * 10000 + 1 * (j 0).val = win1_2.index t (0 : Fin 2) * 10000 + 1 * (j 0).val; rw [e2]
    | ⟨1, _⟩ => show win1_1.index t (1 : Fin 2) * 1 + 1 * 0 = 0; rw [e3]

/-- An index of the result is in point t's block iff, on each axis, it lies in the block's range. -/
theorem mem_blk1 (t : Fin cfg1.N) (i : S1700000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v39).slice (win1_2.rect t)).set ↔ _
  rw [View.set_slice_whole, Rect.mem_set_unit]
  exact Iff.rfl

/-- Row i of the result is written by grid point i / 10000. -/
theorem cover1 (i : S1700000x128.Idx) : ∃ t : Fin cfg1.N, (cfg1.win 2).flush t = true ∧ i ∈ ((cfg1.win 2).blk t).view.set := by
  have hi0 : (i 0).val < 1700000 := (i 0).isLt
  have hi1 : (i 1).val < 128 := (i 1).isLt
  have hN : cfg1.N = 170 := N_1
  refine ⟨⟨(i 0).val / 10000, by rw [hN]; omega⟩, flush1_2 _, ?_⟩
  rw [mem_blk1]
  obtain ⟨e0, e1, e2, e3, e4, e5⟩ := idx1 ⟨(i 0).val / 10000, by rw [hN]; omega⟩
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 128 ≤ (i 1).val ∧ (i 1).val < win1_2.index _ (1 : Fin 2) * 128 + 128
    rw [e5]; omega

/-- After the region its output array is the rows it was entered with, each scaled by its entry of the column. -/
theorem final1 (c : Dev nD) :
    (dat1 V c).arrAt 2 cfg1.N = Cert.Gcn.scaleRows (a := 1700000) (n := 128) (V c main_v22) (V c main_v38) :=
  (dat1 V c).arrAt_eq_of_cover 2 _ (fun t _ => flushed1 V c t) (cover1)

end Cert.KernelIdeal.RegionSC1

end
-- ==== Proof.RegionBR2.lean ====
/-
  The first layer's bias region: after it, its output array holds the per-node sums it was entered with plus the bias
  row, with the maximum with zero taken, row block by row block.
-/
import proofs.«111753_j24386824306774_1_alg».proof.Proof.Gen.KernelIdeal.Frame
import proofs.«111753_j24386824306774_1_alg».proof.Proof.GcnSpec
import Idealize.ShloMosaic.Lib.Pipeline.Value

set_option maxRecDepth 16384

noncomputable section

namespace Cert.KernelIdeal.RegionBR2

open Cert.KernelIdeal Cert.KernelIdeal.Gen Idealize.ShloMosaic Idealize.ShloMosaic.TcCoe Idealize.SL.Sem
open Idealize.ShloMosaic.ValueIdx
open Idealize.ShloMosaic.Pipeline (Dat)

-- the buffer contents a region is entered from
variable (V : (c : Dev nD) → (b : Ref sig .tc) → Buf (Elt Ideal) ((c : Thread nD τ).loc b))

theorem hz : (![0, 0] : Fin 2 → Nat) = fun _ => 0 := funext fun a => by fin_cases a <;> rfl

/-! ## Region 2: a block of 10000 node rows with the bias added and the maximum with zero taken -/

/-- The tile's value: the block plus the bias row in every row, then the maximum with zero. -/
theorem pay2 (x0 : FVec Ideal S10000x128 .f32) (x1 : FVec Ideal S1x128 .f32) :
    k2_pay1 (F := Ideal) x0 x1 = Cert.Gcn.biasRelu x0 x1 := by
  unfold k2_pay1
  exact Cert.Gcn.bias_tile x0 x1 shapeCasts_S10000x128_S10000x128 shapeCasts_S1x128_S1x128 broadcasts_S1x128_S10000x128

/-- Grid point t stages rows 10000 t, ..., 10000 t + 9999 of the array and of the result, and the whole bias row. -/
theorem idx2 : ∀ t : Fin cfg2.N, win2_0.index t (0 : Fin 2) = win2_2.index t (0 : Fin 2) ∧ win2_0.index t (1 : Fin 2) = win2_2.index t (1 : Fin 2)
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is its block of rows of the biased, rectified array. -/
theorem flushed2 (c : Dev nD) (t : Fin cfg2.N) :
    (dat2 V c).flushed 2 t
      = ((cfg2.win 2).blk t).view.read (Elt Ideal) (Cert.Gcn.biasRelu (a := 100000) (n := 128) (V c main_v42) (V c main_v43)) := by
  show (cfg2.win 2).cut (grid2.coords t) ((dat2 V c).after 2 t) = _
  rw [after2_2]
  unfold out2_2
  rw [View.canon_unit_zero hz]
  simp only [View.ld_unit_zero (S := S10000x128) hz, View.ld_unit_zero (S := S1x128) hz]
  rw [pay2]
  obtain ⟨e0, e1, e2, e3, e4, e5⟩ := idx2 t
  refine funext fun (j : S10000x128.Idx) => ?_
  show Cert.Gcn.biasRelu (a := 10000) (n := 128) (iblk2 V c 0 t) (iblk2 V c 1 t) j
    = Cert.Gcn.biasRelu (a := 100000) (n := 128) (V c main_v42) (V c main_v43) (((cfg2.win 2).blk t).view.emb j)
  refine Cert.Gcn.biasRelu_congr _ _ _ _ _ _ (congrArg (V c main_v42) (funext fun a => Fin.ext ?_)) (congrArg (V c main_v43) (funext fun a => Fin.ext ?_))
  · match a with
    | ⟨0, _⟩ => show win2_0.index t (0 : Fin 2) * 10000 + 1 * (j 0).val = win2_2.index t (0 : Fin 2) * 10000 + 1 * (j 0).val; rw [e0]
    | ⟨1, _⟩ => show win2_0.index t (1 : Fin 2) * 128 + 1 * (j 1).val = win2_2.index t (1 : Fin 2) * 128 + 1 * (j 1).val; rw [e1]
  · match a with
    | ⟨0, _⟩ => show win2_1.index t (0 : Fin 2) * 1 + 1 * 0 = 0; rw [e2]
    | ⟨1, _⟩ => show win2_1.index t (1 : Fin 2) * 128 + 1 * (j 1).val = win2_2.index t (1 : Fin 2) * 128 + 1 * (j 1).val; rw [e3, e5]

/-- An index of the result is in point t's block iff, on each axis, it lies in the block's range. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v44).slice (win2_2.rect t)).set ↔ _
  rw [View.set_slice_whole, Rect.mem_set_unit]
  exact Iff.rfl

/-- Row i of the result is written by grid point i / 10000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  refine ⟨⟨(i 0).val / 10000, by rw [hN]; omega⟩, flush2_2 _, ?_⟩
  rw [mem_blk2]
  obtain ⟨e0, e1, e2, e3, e4, e5⟩ := idx2 ⟨(i 0).val / 10000, by rw [hN]; omega⟩
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 128 ≤ (i 1).val ∧ (i 1).val < win2_2.index _ (1 : Fin 2) * 128 + 128
    rw [e5]; omega

/-- After the region its output array is the array it was entered with plus the bias row, rectified. -/
theorem final2 (c : Dev nD) :
    (dat2 V c).arrAt 2 cfg2.N = Cert.Gcn.biasRelu (a := 100000) (n := 128) (V c main_v42) (V c main_v43) :=
  (dat2 V c).arrAt_eq_of_cover 2 _ (fun t _ => flushed2 V c t) (cover2)

end Cert.KernelIdeal.RegionBR2

end
-- ==== Proof.ChainL1.lean ====
/-
  The first layer, boundary by boundary: what each region and each stretch of host operations leaves, as the layer's
  parts applied to the argument arrays.
-/
import proofs.«111753_j24386824306774_1_alg».proof.Proof.ChainBase
import proofs.«111753_j24386824306774_1_alg».proof.Proof.ChainDinv
import proofs.«111753_j24386824306774_1_alg».proof.Proof.RegionMM0
import proofs.«111753_j24386824306774_1_alg».proof.Proof.RegionSC1
import proofs.«111753_j24386824306774_1_alg».proof.Proof.RegionBR2
import proofs.«111753_j24386824306774_1_alg».proof.Proof.GcnSpec
import proofs.«111753_j24386824306774_1_alg».proof.Proof.LibDenseLayer

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## Layer 1 -/

/-- The product region leaves the product of the layer's input features and its weights. -/
theorem feat_1 : W3 m ρ c (Proc.devRef .tc main_v15)
    = Host.dotGeneral (F := Ideal) (φ₁ := .f32) (φ₂ := .f32) Cert.ReferenceIdeal.dot_S100000x128_S128x128_S100000x128_1_0_0_1_n_n none (m ((c.tc : Thread nD τ).loc main_arg0)) (m ((c.tc : Thread nD τ).loc main_arg1)) := by
  refine (W3_arr m ρ c 2).trans ((RegionMM0.final0 (V2 m ρ) c).trans ?_)
  show Cert.Dense.prod (a := 100000) (k := 128) (n := 128) (W2 m ρ c (Proc.devRef .tc main_arg0)) (W2 m ρ c (Proc.devRef .tc main_arg1)) = _
  rw [(main_arg0_at2 m ρ c).trans (w0_arg m ρ c main_arg0), (main_arg1_at2 m ρ c).trans (w0_arg m ρ c main_arg1)]
  exact (Cert.Dense.dotGeneral_eq_prod Cert.ReferenceIdeal.dot_S100000x128_S128x128_S100000x128_1_0_0_1_n_n rfl rfl rfl rfl rfl rfl _ _).symm

/-- The host gathers the product's row of every edge's source. -/
theorem gsrc_1 : W4 m ρ c (Proc.devRef .tc main_v22)
    = Host.gather Cert.ReferenceIdeal.gather_S100000x128_S1700000x1_S1700000x128_1_0_n_n_0_1_1128 (W3 m ρ c (Proc.devRef .tc main_v15)) (Cert.Gcn.wrap (Cert.Gcn.srcOf (m ((c.tc : Thread nD τ).loc main_arg7)))) := by
  show StableHlo.after hostOps1 (W3 m ρ c) (Proc.devRef .tc main_v22) = _
  after_results_simp
  rw [(main_v3_at3 m ρ c).trans (w2_src m ρ c)]
  rfl

/-- The host lays the edges' scales out as a column. -/
theorem ncol_1 : W4 m ρ c (Proc.devRef .tc main_v38)
    = broadcastInDim Cert.ReferenceIdeal.S1700000x1 ![0] Cert.ReferenceIdeal.Facts₀.bcast_S1700000_S1700000x1_0 (Cert.Gcn.normOf (m ((c.tc : Thread nD τ).loc main_arg7))) := by
  show StableHlo.after hostOps1 (W3 m ρ c) (Proc.devRef .tc main_v38) = _
  after_results_simp
  rw [(main_v3_at3 m ρ c).trans (w2_src m ρ c), (main_v6_at3 m ρ c).trans (w2_dst m ρ c), (main_v14_at3 m ρ c).trans (w2_dinv m ρ c)]
  rfl

/-- The scaling region leaves the messages: the gathered rows, each times its edge's scale. -/
theorem msg_1 : W5 m ρ c (Proc.devRef .tc main_v39) = Cert.Gcn.messages (W3 m ρ c (Proc.devRef .tc main_v15)) (m ((c.tc : Thread nD τ).loc main_arg7)) := by
  refine (W5_arr m ρ c 2).trans ((RegionSC1.final1 (V4 m ρ) c).trans ?_)
  show Cert.Gcn.scaleRows (a := 1700000) (n := 128) (W4 m ρ c (Proc.devRef .tc main_v22)) (W4 m ρ c (Proc.devRef .tc main_v38)) = _
  rw [gsrc_1 m ρ c, ncol_1 m ρ c]
  exact (Cert.Gcn.scale_host _ _ Cert.ReferenceIdeal.Facts₀.bcast_S1700000x1_S1700000x128_0_1).symm

/-- The host sums the messages per destination node. -/
theorem agg_1 : W6 m ρ c (Proc.devRef .tc main_v42) = Cert.Gcn.aggregate (W5 m ρ c (Proc.devRef .tc main_v39)) (m ((c.tc : Thread nD τ).loc main_arg7)) := by
  show StableHlo.after hostOps2 (W5 m ρ c) (Proc.devRef .tc main_v42) = _
  after_results_simp
  rw [(main_v6_at5 m ρ c).trans (w2_dst m ρ c)]
  rfl

/-- The host lays the bias out as a row: the reshape is the broadcast along the second axis. -/
theorem brow_1 : W6 m ρ c (Proc.devRef .tc main_v43)
    = broadcastInDim Cert.ReferenceIdeal.S1x128 ![1] Cert.ReferenceIdeal.Facts₀.bcast_S128_S1x128_1 (m ((c.tc : Thread nD τ).loc main_arg2)) := by
  show StableHlo.after hostOps2 (W5 m ρ c) (Proc.devRef .tc main_v43) = _
  after_results_simp
  rw [(main_arg2_at5 m ρ c).trans (w0_arg m ρ c main_arg2)]
  exact Cert.Dense.row_cast_eq_bcast _ _ _

/-- The bias region leaves the layer's result. -/
theorem out_1 : W7 m ρ c (Proc.devRef .tc main_v44)
    = Cert.Gcn.layer (m ((c.tc : Thread nD τ).loc main_arg0)) (m ((c.tc : Thread nD τ).loc main_arg1)) (m ((c.tc : Thread nD τ).loc main_arg2)) (m ((c.tc : Thread nD τ).loc main_arg7)) := by
  refine (W7_arr m ρ c 2).trans ((RegionBR2.final2 (V6 m ρ) c).trans ?_)
  show Cert.Gcn.biasRelu (a := 100000) (n := 128) (W6 m ρ c (Proc.devRef .tc main_v42)) (W6 m ρ c (Proc.devRef .tc main_v43)) = _
  rw [agg_1 m ρ c, brow_1 m ρ c, msg_1 m ρ c, feat_1 m ρ c]
  exact (Cert.Gcn.bias_host _ _ Cert.ReferenceIdeal.Facts₀.bcast_S1x128_S100000x128_0_1 Cert.ReferenceIdeal.Facts₀.bcast_S_S100000x128).symm

end Cert.KernelIdeal.Chain

end
-- ==== Proof.RegionMM3.lean ====
/-
  The second layer's product region: after it, its output array holds the product of the first layer's result and the
  second weight matrix, row block by row block.
-/
import proofs.«111753_j24386824306774_1_alg».proof.Proof.Gen.KernelIdeal.Frame
import proofs.«111753_j24386824306774_1_alg».proof.Proof.GcnSpec
import Idealize.ShloMosaic.Lib.Pipeline.Value

set_option maxRecDepth 16384

noncomputable section

namespace Cert.KernelIdeal.RegionMM3

open Cert.KernelIdeal Cert.KernelIdeal.Gen Idealize.ShloMosaic Idealize.ShloMosaic.TcCoe Idealize.SL.Sem
open Idealize.ShloMosaic.ValueIdx
open Idealize.ShloMosaic.Pipeline (Dat)

-- the buffer contents a region is entered from
variable (V : (c : Dev nD) → (b : Ref sig .tc) → Buf (Elt Ideal) ((c : Thread nD τ).loc b))

theorem hz : (![0, 0] : Fin 2 → Nat) = fun _ => 0 := funext fun a => by fin_cases a <;> rfl

/-! ## Region 3: the product of a block of 10000 rows with the weights -/

/-- The tile's value: the matrix unit's product, into a zero accumulator, of the two blocks rounded to bfloat16 (the left
    one first cast to its own shape) is the product of the blocks on the extended reals. -/
theorem pay3 (x0 : FVec Ideal S10000x128 .f32) (x1 : FVec Ideal S128x128 .f32) :
    k3_pay1 (F := Ideal) x0 x1 = Cert.Dense.prod x0 x1 := by
  unfold k3_pay1
  show matmul dot_S10000x128_S128x128_S10000x128_1_0_0_1_n_n none (truncf .bf16 (shapeCast S10000x128 x0 shapeCasts_S10000x128_S10000x128) bitsLt_bf16_f32) (truncf .bf16 x1 bitsLt_bf16_f32) (constant (F := Ideal) S10000x128 .f32 0x00000000#32) = _
  rw [shapeCast_self]
  exact Cert.Dense.matmul_eq_prod dot_S10000x128_S128x128_S10000x128_1_0_0_1_n_n rfl rfl rfl rfl rfl rfl x0 x1 bitsLt_bf16_f32

/-- Grid point t stages rows 10000 t, ..., 10000 t + 9999 of the left array and of the result, and the whole right
    array. -/
theorem idx3 : ∀ t : Fin cfg3.N, win3_0.index t (0 : Fin 2) = win3_2.index t (0 : Fin 2) ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is its block of rows of the product of the whole arrays: row r of the block is row
    10000 t + r of the left array against every column of the right one. -/
theorem flushed3 (c : Dev nD) (t : Fin cfg3.N) :
    (dat3 V c).flushed 2 t
      = ((cfg3.win 2).blk t).view.read (Elt Ideal) (Cert.Dense.prod (a := 100000) (k := 128) (n := 128) (V c main_v44) (V c main_arg3)) := by
  show (cfg3.win 2).cut (grid3.coords t) ((dat3 V c).after 2 t) = _
  rw [after3_2]
  unfold out3_2
  rw [View.canon_unit_zero hz]
  simp only [View.ld_unit_zero (S := S10000x128) hz, View.ld_unit_zero (S := S128x128) hz]
  rw [pay3]
  obtain ⟨e0, e1, e2, e3, e4, e5⟩ := idx3 t
  refine funext fun (j : S10000x128.Idx) => ?_
  show Cert.Dense.prod (a := 10000) (k := 128) (n := 128) (iblk3 V c 0 t) (iblk3 V c 1 t) j
    = Cert.Dense.prod (a := 100000) (k := 128) (n := 128) (V c main_v44) (V c main_arg3) (((cfg3.win 2).blk t).view.emb j)
  refine Cert.Gcn.prod_congr _ _ _ _ _ _ (fun cc => congrArg (V c main_v44) (funext fun a => Fin.ext ?_)) (fun cc => congrArg (V c main_arg3) (funext fun a => Fin.ext ?_))
  · match a with
    | ⟨0, _⟩ => show win3_0.index t (0 : Fin 2) * 10000 + 1 * (j 0).val = win3_2.index t (0 : Fin 2) * 10000 + 1 * (j 0).val; rw [e0]
    | ⟨1, _⟩ => show win3_0.index t (1 : Fin 2) * 128 + 1 * cc.val = cc.val; rw [e1]; omega
  · match a with
    | ⟨0, _⟩ => show win3_1.index t (0 : Fin 2) * 128 + 1 * cc.val = cc.val; rw [e2]; omega
    | ⟨1, _⟩ => show win3_1.index t (1 : Fin 2) * 128 + 1 * (j 1).val = win3_2.index t (1 : Fin 2) * 128 + 1 * (j 1).val; rw [e3, e5]

/-- An index of the result is in point t's block iff, on each axis, it lies in the block's range. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v45).slice (win3_2.rect t)).set ↔ _
  rw [View.set_slice_whole, Rect.mem_set_unit]
  exact Iff.rfl

/-- Row i of the result is written by grid point i / 10000. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  refine ⟨⟨(i 0).val / 10000, by rw [hN]; omega⟩, flush3_2 _, ?_⟩
  rw [mem_blk3]
  obtain ⟨e0, e1, e2, e3, e4, e5⟩ := idx3 ⟨(i 0).val / 10000, by rw [hN]; omega⟩
  intro a
  match a with
  | ⟨0, _⟩ =>
    show win3_2.index _ (0 : Fin 2) * 10000 ≤ (i 0).val ∧ (i 0).val < win3_2.index _ (0 : Fin 2) * 10000 + 10000
    rw [e4]; show (i 0).val / 10000 * 10000 ≤ (i 0).val ∧ (i 0).val < (i 0).val / 10000 * 10000 + 10000; omega
  | ⟨1, _⟩ =>
    show win3_2.index _ (1 : Fin 2) * 128 ≤ (i 1).val ∧ (i 1).val < win3_2.index _ (1 : Fin 2) * 128 + 128
    rw [e5]; omega

/-- After the region its output array is the product of the two arrays it was entered with. -/
theorem final3 (c : Dev nD) :
    (dat3 V c).arrAt 2 cfg3.N = Cert.Dense.prod (a := 100000) (k := 128) (n := 128) (V c main_v44) (V c main_arg3) :=
  (dat3 V c).arrAt_eq_of_cover 2 _ (fun t _ => flushed3 V c t) (cover3)

end Cert.KernelIdeal.RegionMM3

end
-- ==== Proof.RegionSC4.lean ====
/-
  The second layer's scaling region: after it, its output array holds the gathered rows it was entered with, each
  multiplied by its edge's scale, row block by row block.
-/
import proofs.«111753_j24386824306774_1_alg».proof.Proof.Gen.KernelIdeal.Frame
import proofs.«111753_j24386824306774_1_alg».proof.Proof.GcnSpec
import Idealize.ShloMosaic.Lib.Pipeline.Value

set_option maxRecDepth 16384

noncomputable section

namespace Cert.KernelIdeal.RegionSC4

open Cert.KernelIdeal Cert.KernelIdeal.Gen Idealize.ShloMosaic Idealize.ShloMosaic.TcCoe Idealize.SL.Sem
open Idealize.ShloMosaic.ValueIdx
open Idealize.ShloMosaic.Pipeline (Dat)

-- the buffer contents a region is entered from
variable (V : (c : Dev nD) → (b : Ref sig .tc) → Buf (Elt Ideal) ((c : Thread nD τ).loc b))

theorem hz : (![0, 0] : Fin 2 → Nat) = fun _ => 0 := funext fun a => by fin_cases a <;> rfl

/-! ## Region 4: a block of 10000 edge rows, each scaled by its edge's scale -/

/-- The tile's value: row r of the block times the block's column entry of row r. -/
theorem pay4 (x0 : FVec Ideal S10000x128 .f32) (x1 : FVec Ideal S10000x1 .f32) :
    k4_pay1 (F := Ideal) x0 x1 = Cert.Gcn.scaleRows x0 x1 := by
  unfold k4_pay1
  exact Cert.Gcn.scale_tile x0 x1 shapeCasts_S10000x128_S10000x128 shapeCasts_S10000x1_S10000x1 broadcasts_S10000x1_S10000x128

/-- Grid point t stages rows 10000 t, ..., 10000 t + 9999 of the rows, of the scale column and of the result. -/
theorem idx4 : ∀ t : Fin cfg4.N, win4_0.index t (0 : Fin 2) = win4_2.index t (0 : Fin 2) ∧ win4_0.index t (1 : Fin 2) = win4_2.index t (1 : Fin 2)
    ∧ win4_1.index t (0 : Fin 2) = win4_2.index t (0 : Fin 2) ∧ win4_1.index t (1 : Fin 2) = 0
    ∧ win4_2.index t (0 : Fin 2) = t.val ∧ win4_2.index t (1 : Fin 2) = 0 :=
  (by decide +kernel : ∀ t : Fin grid4.N, _)

/-- What grid point t writes back is its block of rows of the scaled array: row r of the block is row 10000 t + r of
    the rows times entry 10000 t + r of the scale column. -/
theorem flushed4 (c : Dev nD) (t : Fin cfg4.N) :
    (dat4 V c).flushed 2 t
      = ((cfg4.win 2).blk t).view.read (Elt Ideal) (Cert.Gcn.scaleRows (a := 1700000) (n := 128) (V c main_v52) (V c main_v68)) := by
  show (cfg4.win 2).cut (grid4.coords t) ((dat4 V c).after 2 t) = _
  rw [after4_2]
  unfold out4_2
  rw [View.canon_unit_zero hz]
  simp only [View.ld_unit_zero (S := S10000x128) hz, View.ld_unit_zero (S := S10000x1) hz]
  rw [pay4]
  obtain ⟨e0, e1, e2, e3, e4, e5⟩ := idx4 t
  refine funext fun (j : S10000x128.Idx) => ?_
  show Cert.Gcn.scaleRows (a := 10000) (n := 128) (iblk4 V c 0 t) (iblk4 V c 1 t) j
    = Cert.Gcn.scaleRows (a := 1700000) (n := 128) (V c main_v52) (V c main_v68) (((cfg4.win 2).blk t).view.emb j)
  refine Cert.Gcn.scaleRows_congr _ _ _ _ _ _ (congrArg (V c main_v52) (funext fun a => Fin.ext ?_)) (congrArg (V c main_v68) (funext fun a => Fin.ext ?_))
  · match a with
    | ⟨0, _⟩ => show win4_0.index t (0 : Fin 2) * 10000 + 1 * (j 0).val = win4_2.index t (0 : Fin 2) * 10000 + 1 * (j 0).val; rw [e0]
    | ⟨1, _⟩ => show win4_0.index t (1 : Fin 2) * 128 + 1 * (j 1).val = win4_2.index t (1 : Fin 2) * 128 + 1 * (j 1).val; rw [e1]
  · match a with
    | ⟨0, _⟩ => show win4_1.index t (0 : Fin 2) * 10000 + 1 * (j 0).val = win4_2.index t (0 : Fin 2) * 10000 + 1 * (j 0).val; rw [e2]
    | ⟨1, _⟩ => show win4_1.index t (1 : Fin 2) * 1 + 1 * 0 = 0; rw [e3]

/-- An index of the result is in point t's block iff, on each axis, it lies in the block's range. -/
theorem mem_blk4 (t : Fin cfg4.N) (i : S1700000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v69).slice (win4_2.rect t)).set ↔ _
  rw [View.set_slice_whole, Rect.mem_set_unit]
  exact Iff.rfl

/-- Row i of the result is written by grid point i / 10000. -/
theorem cover4 (i : S1700000x128.Idx) : ∃ t : Fin cfg4.N, (cfg4.win 2).flush t = true ∧ i ∈ ((cfg4.win 2).blk t).view.set := by
  have hi0 : (i 0).val < 1700000 := (i 0).isLt
  have hi1 : (i 1).val < 128 := (i 1).isLt
  have hN : cfg4.N = 170 := N_4
  refine ⟨⟨(i 0).val / 10000, by rw [hN]; omega⟩, flush4_2 _, ?_⟩
  rw [mem_blk4]
  obtain ⟨e0, e1, e2, e3, e4, e5⟩ := idx4 ⟨(i 0).val / 10000, by rw [hN]; omega⟩
  intro a
  match a with
  | ⟨0, _⟩ =>
    show win4_2.index _ (0 : Fin 2) * 10000 ≤ (i 0).val ∧ (i 0).val < win4_2.index _ (0 : Fin 2) * 10000 + 10000
    rw [e4]; show (i 0).val / 10000 * 10000 ≤ (i 0).val ∧ (i 0).val < (i 0).val / 10000 * 10000 + 10000; omega
  | ⟨1, _⟩ =>
    show win4_2.index _ (1 : Fin 2) * 128 ≤ (i 1).val ∧ (i 1).val < win4_2.index _ (1 : Fin 2) * 128 + 128
    rw [e5]; omega

/-- After the region its output array is the rows it was entered with, each scaled by its entry of the column. -/
theorem final4 (c : Dev nD) :
    (dat4 V c).arrAt 2 cfg4.N = Cert.Gcn.scaleRows (a := 1700000) (n := 128) (V c main_v52) (V c main_v68) :=
  (dat4 V c).arrAt_eq_of_cover 2 _ (fun t _ => flushed4 V c t) (cover4)

end Cert.KernelIdeal.RegionSC4

end
-- ==== Proof.RegionBR5.lean ====
/-
  The second layer's bias region: after it, its output array holds the per-node sums it was entered with plus the
  bias row, with the maximum with zero taken, row block by row block.
-/
import proofs.«111753_j24386824306774_1_alg».proof.Proof.Gen.KernelIdeal.Frame
import proofs.«111753_j24386824306774_1_alg».proof.Proof.GcnSpec
import Idealize.ShloMosaic.Lib.Pipeline.Value

set_option maxRecDepth 16384

noncomputable section

namespace Cert.KernelIdeal.RegionBR5

open Cert.KernelIdeal Cert.KernelIdeal.Gen Idealize.ShloMosaic Idealize.ShloMosaic.TcCoe Idealize.SL.Sem
open Idealize.ShloMosaic.ValueIdx
open Idealize.ShloMosaic.Pipeline (Dat)

-- the buffer contents a region is entered from
variable (V : (c : Dev nD) → (b : Ref sig .tc) → Buf (Elt Ideal) ((c : Thread nD τ).loc b))

theorem hz : (![0, 0] : Fin 2 → Nat) = fun _ => 0 := funext fun a => by fin_cases a <;> rfl

/-! ## Region 5: a block of 10000 node rows with the bias added and the maximum with zero taken -/

/-- The tile's value: the block plus the bias row in every row, then the maximum with zero. -/
theorem pay5 (x0 : FVec Ideal S10000x128 .f32) (x1 : FVec Ideal S1x128 .f32) :
    k5_pay1 (F := Ideal) x0 x1 = Cert.Gcn.biasRelu x0 x1 := by
  unfold k5_pay1
  exact Cert.Gcn.bias_tile x0 x1 shapeCasts_S10000x128_S10000x128 shapeCasts_S1x128_S1x128 broadcasts_S1x128_S10000x128

/-- Grid point t stages rows 10000 t, ..., 10000 t + 9999 of the array and of the result, and the whole bias row. -/
theorem idx5 : ∀ t : Fin cfg5.N, win5_0.index t (0 : Fin 2) = win5_2.index t (0 : Fin 2) ∧ win5_0.index t (1 : Fin 2) = win5_2.index t (1 : Fin 2)
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What grid point t writes back is its block of rows of the biased, rectified array. -/
theorem flushed5 (c : Dev nD) (t : Fin cfg5.N) :
    (dat5 V c).flushed 2 t
      = ((cfg5.win 2).blk t).view.read (Elt Ideal) (Cert.Gcn.biasRelu (a := 100000) (n := 128) (V c main_v72) (V c main_v73)) := by
  show (cfg5.win 2).cut (grid5.coords t) ((dat5 V c).after 2 t) = _
  rw [after5_2]
  unfold out5_2
  rw [View.canon_unit_zero hz]
  simp only [View.ld_unit_zero (S := S10000x128) hz, View.ld_unit_zero (S := S1x128) hz]
  rw [pay5]
  obtain ⟨e0, e1, e2, e3, e4, e5⟩ := idx5 t
  refine funext fun (j : S10000x128.Idx) => ?_
  show Cert.Gcn.biasRelu (a := 10000) (n := 128) (iblk5 V c 0 t) (iblk5 V c 1 t) j
    = Cert.Gcn.biasRelu (a := 100000) (n := 128) (V c main_v72) (V c main_v73) (((cfg5.win 2).blk t).view.emb j)
  refine Cert.Gcn.biasRelu_congr _ _ _ _ _ _ (congrArg (V c main_v72) (funext fun a => Fin.ext ?_)) (congrArg (V c main_v73) (funext fun a => Fin.ext ?_))
  · match a with
    | ⟨0, _⟩ => show win5_0.index t (0 : Fin 2) * 10000 + 1 * (j 0).val = win5_2.index t (0 : Fin 2) * 10000 + 1 * (j 0).val; rw [e0]
    | ⟨1, _⟩ => show win5_0.index t (1 : Fin 2) * 128 + 1 * (j 1).val = win5_2.index t (1 : Fin 2) * 128 + 1 * (j 1).val; rw [e1]
  · match a with
    | ⟨0, _⟩ => show win5_1.index t (0 : Fin 2) * 1 + 1 * 0 = 0; rw [e2]
    | ⟨1, _⟩ => show win5_1.index t (1 : Fin 2) * 128 + 1 * (j 1).val = win5_2.index t (1 : Fin 2) * 128 + 1 * (j 1).val; rw [e3, e5]

/-- An index of the result is in point t's block iff, on each axis, it lies in the block's range. -/
theorem mem_blk5 (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v74).slice (win5_2.rect t)).set ↔ _
  rw [View.set_slice_whole, Rect.mem_set_unit]
  exact Iff.rfl

/-- Row i of the result is written by grid point i / 10000. -/
theorem cover5 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 10 := N_5
  refine ⟨⟨(i 0).val / 10000, by rw [hN]; omega⟩, flush5_2 _, ?_⟩
  rw [mem_blk5]
  obtain ⟨e0, e1, e2, e3, e4, e5⟩ := idx5 ⟨(i 0).val / 10000, by rw [hN]; omega⟩
  intro a
  match a with
  | ⟨0, _⟩ =>
    show win5_2.index _ (0 : Fin 2) * 10000 ≤ (i 0).val ∧ (i 0).val < win5_2.index _ (0 : Fin 2) * 10000 + 10000
    rw [e4]; show (i 0).val / 10000 * 10000 ≤ (i 0).val ∧ (i 0).val < (i 0).val / 10000 * 10000 + 10000; omega
  | ⟨1, _⟩ =>
    show win5_2.index _ (1 : Fin 2) * 128 ≤ (i 1).val ∧ (i 1).val < win5_2.index _ (1 : Fin 2) * 128 + 128
    rw [e5]; omega

/-- After the region its output array is the array it was entered with plus the bias row, rectified. -/
theorem final5 (c : Dev nD) :
    (dat5 V c).arrAt 2 cfg5.N = Cert.Gcn.biasRelu (a := 100000) (n := 128) (V c main_v72) (V c main_v73) :=
  (dat5 V c).arrAt_eq_of_cover 2 _ (fun t _ => flushed5 V c t) (cover5)

end Cert.KernelIdeal.RegionBR5

end
-- ==== Proof.ChainL2.lean ====
/-
  The second layer, boundary by boundary: what each region and each stretch of host operations leaves, as the layer's
  parts applied to the first layer's result and the argument arrays.
-/
import proofs.«111753_j24386824306774_1_alg».proof.Proof.ChainBase
import proofs.«111753_j24386824306774_1_alg».proof.Proof.ChainDinv
import proofs.«111753_j24386824306774_1_alg».proof.Proof.RegionMM3
import proofs.«111753_j24386824306774_1_alg».proof.Proof.RegionSC4
import proofs.«111753_j24386824306774_1_alg».proof.Proof.RegionBR5
import proofs.«111753_j24386824306774_1_alg».proof.Proof.GcnSpec
import proofs.«111753_j24386824306774_1_alg».proof.Proof.LibDenseLayer

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## Layer 2 -/

/-- The product region leaves the product of the layer's input features and its weights. -/
theorem feat_2 : W8 m ρ c (Proc.devRef .tc main_v45)
    = Host.dotGeneral (F := Ideal) (φ₁ := .f32) (φ₂ := .f32) Cert.ReferenceIdeal.dot_S100000x128_S128x128_S100000x128_1_0_0_1_n_n none (W7 m ρ c (Proc.devRef .tc main_v44)) (m ((c.tc : Thread nD τ).loc main_arg3)) := by
  refine (W8_arr m ρ c 2).trans ((RegionMM3.final3 (V7 m ρ) c).trans ?_)
  show Cert.Dense.prod (a := 100000) (k := 128) (n := 128) (W7 m ρ c (Proc.devRef .tc main_v44)) (W7 m ρ c (Proc.devRef .tc main_arg3)) = _
  rw [(main_arg3_at7 m ρ c).trans (w0_arg m ρ c main_arg3)]
  exact (Cert.Dense.dotGeneral_eq_prod Cert.ReferenceIdeal.dot_S100000x128_S128x128_S100000x128_1_0_0_1_n_n rfl rfl rfl rfl rfl rfl _ _).symm

/-- The host gathers the product's row of every edge's source. -/
theorem gsrc_2 : W9 m ρ c (Proc.devRef .tc main_v52)
    = Host.gather Cert.ReferenceIdeal.gather_S100000x128_S1700000x1_S1700000x128_1_0_n_n_0_1_1128 (W8 m ρ c (Proc.devRef .tc main_v45)) (Cert.Gcn.wrap (Cert.Gcn.srcOf (m ((c.tc : Thread nD τ).loc main_arg7)))) := by
  show StableHlo.after hostOps4 (W8 m ρ c) (Proc.devRef .tc main_v52) = _
  after_results_simp
  rw [(main_v3_at8 m ρ c).trans (w2_src m ρ c)]
  rfl

/-- The host lays the edges' scales out as a column. -/
theorem ncol_2 : W9 m ρ c (Proc.devRef .tc main_v68)
    = broadcastInDim Cert.ReferenceIdeal.S1700000x1 ![0] Cert.ReferenceIdeal.Facts₀.bcast_S1700000_S1700000x1_0 (Cert.Gcn.normOf (m ((c.tc : Thread nD τ).loc main_arg7))) := by
  show StableHlo.after hostOps4 (W8 m ρ c) (Proc.devRef .tc main_v68) = _
  after_results_simp
  rw [(main_v3_at8 m ρ c).trans (w2_src m ρ c), (main_v6_at8 m ρ c).trans (w2_dst m ρ c), (main_v14_at8 m ρ c).trans (w2_dinv m ρ c)]
  rfl

/-- The scaling region leaves the messages: the gathered rows, each times its edge's scale. -/
theorem msg_2 : W10 m ρ c (Proc.devRef .tc main_v69) = Cert.Gcn.messages (W8 m ρ c (Proc.devRef .tc main_v45)) (m ((c.tc : Thread nD τ).loc main_arg7)) := by
  refine (W10_arr m ρ c 2).trans ((RegionSC4.final4 (V9 m ρ) c).trans ?_)
  show Cert.Gcn.scaleRows (a := 1700000) (n := 128) (W9 m ρ c (Proc.devRef .tc main_v52)) (W9 m ρ c (Proc.devRef .tc main_v68)) = _
  rw [gsrc_2 m ρ c, ncol_2 m ρ c]
  exact (Cert.Gcn.scale_host _ _ Cert.ReferenceIdeal.Facts₀.bcast_S1700000x1_S1700000x128_0_1).symm

/-- The host sums the messages per destination node. -/
theorem agg_2 : W11 m ρ c (Proc.devRef .tc main_v72) = Cert.Gcn.aggregate (W10 m ρ c (Proc.devRef .tc main_v69)) (m ((c.tc : Thread nD τ).loc main_arg7)) := by
  show StableHlo.after hostOps5 (W10 m ρ c) (Proc.devRef .tc main_v72) = _
  after_results_simp
  rw [(main_v6_at10 m ρ c).trans (w2_dst m ρ c)]
  rfl

/-- The host lays the bias out as a row: the reshape is the broadcast along the second axis. -/
theorem brow_2 : W11 m ρ c (Proc.devRef .tc main_v73)
    = broadcastInDim Cert.ReferenceIdeal.S1x128 ![1] Cert.ReferenceIdeal.Facts₀.bcast_S128_S1x128_1 (m ((c.tc : Thread nD τ).loc main_arg4)) := by
  show StableHlo.after hostOps5 (W10 m ρ c) (Proc.devRef .tc main_v73) = _
  after_results_simp
  rw [(main_arg4_at10 m ρ c).trans (w0_arg m ρ c main_arg4)]
  exact Cert.Dense.row_cast_eq_bcast _ _ _

/-- The bias region leaves the layer's result. -/
theorem out_2 : W12 m ρ c (Proc.devRef .tc main_v74)
    = Cert.Gcn.layer (W7 m ρ c (Proc.devRef .tc main_v44)) (m ((c.tc : Thread nD τ).loc main_arg3)) (m ((c.tc : Thread nD τ).loc main_arg4)) (m ((c.tc : Thread nD τ).loc main_arg7)) := by
  refine (W12_arr m ρ c 2).trans ((RegionBR5.final5 (V11 m ρ) c).trans ?_)
  show Cert.Gcn.biasRelu (a := 100000) (n := 128) (W11 m ρ c (Proc.devRef .tc main_v72)) (W11 m ρ c (Proc.devRef .tc main_v73)) = _
  rw [agg_2 m ρ c, brow_2 m ρ c, msg_2 m ρ c, feat_2 m ρ c]
  exact (Cert.Gcn.bias_host _ _ Cert.ReferenceIdeal.Facts₀.bcast_S1x128_S100000x128_0_1 Cert.ReferenceIdeal.Facts₀.bcast_S_S100000x128).symm

end Cert.KernelIdeal.Chain

end
-- ==== Proof.RegionMM6.lean ====
/-
  The third layer's product region: after it, its output array holds the product of the second layer's result and the
  third weight matrix, row block by row block.
-/
import proofs.«111753_j24386824306774_1_alg».proof.Proof.Gen.KernelIdeal.Frame
import proofs.«111753_j24386824306774_1_alg».proof.Proof.GcnSpec
import Idealize.ShloMosaic.Lib.Pipeline.Value

set_option maxRecDepth 16384

noncomputable section

namespace Cert.KernelIdeal.RegionMM6

open Cert.KernelIdeal Cert.KernelIdeal.Gen Idealize.ShloMosaic Idealize.ShloMosaic.TcCoe Idealize.SL.Sem
open Idealize.ShloMosaic.ValueIdx
open Idealize.ShloMosaic.Pipeline (Dat)

-- the buffer contents a region is entered from
variable (V : (c : Dev nD) → (b : Ref sig .tc) → Buf (Elt Ideal) ((c : Thread nD τ).loc b))

theorem hz : (![0, 0] : Fin 2 → Nat) = fun _ => 0 := funext fun a => by fin_cases a <;> rfl

/-! ## Region 6: the product of a block of 10000 rows with the weights -/

/-- The tile's value: the matrix unit's product, into a zero accumulator, of the two blocks rounded to bfloat16 (the left
    one first cast to its own shape) is the product of the blocks on the extended reals. -/
theorem pay6 (x0 : FVec Ideal S10000x128 .f32) (x1 : FVec Ideal S128x128 .f32) :
    k6_pay1 (F := Ideal) x0 x1 = Cert.Dense.prod x0 x1 := by
  unfold k6_pay1
  show matmul dot_S10000x128_S128x128_S10000x128_1_0_0_1_n_n none (truncf .bf16 (shapeCast S10000x128 x0 shapeCasts_S10000x128_S10000x128) bitsLt_bf16_f32) (truncf .bf16 x1 bitsLt_bf16_f32) (constant (F := Ideal) S10000x128 .f32 0x00000000#32) = _
  rw [shapeCast_self]
  exact Cert.Dense.matmul_eq_prod dot_S10000x128_S128x128_S10000x128_1_0_0_1_n_n rfl rfl rfl rfl rfl rfl x0 x1 bitsLt_bf16_f32

/-- Grid point t stages rows 10000 t, ..., 10000 t + 9999 of the left array and of the result, and the whole right
    array. -/
theorem idx6 : ∀ t : Fin cfg6.N, win6_0.index t (0 : Fin 2) = win6_2.index t (0 : Fin 2) ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What grid point t writes back is its block of rows of the product of the whole arrays: row r of the block is row
    10000 t + r of the left array against every column of the right one. -/
theorem flushed6 (c : Dev nD) (t : Fin cfg6.N) :
    (dat6 V c).flushed 2 t
      = ((cfg6.win 2).blk t).view.read (Elt Ideal) (Cert.Dense.prod (a := 100000) (k := 128) (n := 128) (V c main_v74) (V c main_arg5)) := by
  show (cfg6.win 2).cut (grid6.coords t) ((dat6 V c).after 2 t) = _
  rw [after6_2]
  unfold out6_2
  rw [View.canon_unit_zero hz]
  simp only [View.ld_unit_zero (S := S10000x128) hz, View.ld_unit_zero (S := S128x128) hz]
  rw [pay6]
  obtain ⟨e0, e1, e2, e3, e4, e5⟩ := idx6 t
  refine funext fun (j : S10000x128.Idx) => ?_
  show Cert.Dense.prod (a := 10000) (k := 128) (n := 128) (iblk6 V c 0 t) (iblk6 V c 1 t) j
    = Cert.Dense.prod (a := 100000) (k := 128) (n := 128) (V c main_v74) (V c main_arg5) (((cfg6.win 2).blk t).view.emb j)
  refine Cert.Gcn.prod_congr _ _ _ _ _ _ (fun cc => congrArg (V c main_v74) (funext fun a => Fin.ext ?_)) (fun cc => congrArg (V c main_arg5) (funext fun a => Fin.ext ?_))
  · match a with
    | ⟨0, _⟩ => show win6_0.index t (0 : Fin 2) * 10000 + 1 * (j 0).val = win6_2.index t (0 : Fin 2) * 10000 + 1 * (j 0).val; rw [e0]
    | ⟨1, _⟩ => show win6_0.index t (1 : Fin 2) * 128 + 1 * cc.val = cc.val; rw [e1]; omega
  · match a with
    | ⟨0, _⟩ => show win6_1.index t (0 : Fin 2) * 128 + 1 * cc.val = cc.val; rw [e2]; omega
    | ⟨1, _⟩ => show win6_1.index t (1 : Fin 2) * 128 + 1 * (j 1).val = win6_2.index t (1 : Fin 2) * 128 + 1 * (j 1).val; rw [e3, e5]

/-- An index of the result is in point t's block iff, on each axis, it lies in the block's range. -/
theorem mem_blk6 (t : Fin cfg6.N) (i : S100000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole main_v75).slice (win6_2.rect t)).set ↔ _
  rw [View.set_slice_whole, Rect.mem_set_unit]
  exact Iff.rfl

/-- Row i of the result is written by grid point i / 10000. -/
theorem cover6 (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 10 := N_6
  refine ⟨⟨(i 0).val / 10000, by rw [hN]; omega⟩, flush6_2 _, ?_⟩
  rw [mem_blk6]
  obtain ⟨e0, e1, e2, e3, e4, e5⟩ := idx6 ⟨(i 0).val / 10000, by rw [hN]; omega⟩
  intro a
  match a with
  | ⟨0, _⟩ =>
    show win6_2.index _ (0 : Fin 2) * 10000 ≤ (i 0).val ∧ (i 0).val < win6_2.index _ (0 : Fin 2) * 10000 + 10000
    rw [e4]; show (i 0).val / 10000 * 10000 ≤ (i 0).val ∧ (i 0).val < (i 0).val / 10000 * 10000 + 10000; omega
  | ⟨1, _⟩ =>
    show win6_2.index _ (1 : Fin 2) * 128 ≤ (i 1).val ∧ (i 1).val < win6_2.index _ (1 : Fin 2) * 128 + 128
    rw [e5]; omega

/-- After the region its output array is the product of the two arrays it was entered with. -/
theorem final6 (c : Dev nD) :
    (dat6 V c).arrAt 2 cfg6.N = Cert.Dense.prod (a := 100000) (k := 128) (n := 128) (V c main_v74) (V c main_arg5) :=
  (dat6 V c).arrAt_eq_of_cover 2 _ (fun t _ => flushed6 V c t) (cover6)

end Cert.KernelIdeal.RegionMM6

end
-- ==== Proof.RegionSC7.lean ====
/-
  The third layer's scaling region: after it, its output array holds the gathered rows it was entered with, each
  multiplied by its edge's scale, row block by row block.
-/
import proofs.«111753_j24386824306774_1_alg».proof.Proof.Gen.KernelIdeal.Frame
import proofs.«111753_j24386824306774_1_alg».proof.Proof.GcnSpec
import Idealize.ShloMosaic.Lib.Pipeline.Value

set_option maxRecDepth 16384

noncomputable section

namespace Cert.KernelIdeal.RegionSC7

open Cert.KernelIdeal Cert.KernelIdeal.Gen Idealize.ShloMosaic Idealize.ShloMosaic.TcCoe Idealize.SL.Sem
open Idealize.ShloMosaic.ValueIdx
open Idealize.ShloMosaic.Pipeline (Dat)

-- the buffer contents a region is entered from
variable (V : (c : Dev nD) → (b : Ref sig .tc) → Buf (Elt Ideal) ((c : Thread nD τ).loc b))

theorem hz : (![0, 0] : Fin 2 → Nat) = fun _ => 0 := funext fun a => by fin_cases a <;> rfl

/-! ## Region 7: a block of 10000 edge rows, each scaled by its edge's scale -/

/-- The tile's value: row r of the block times the block's column entry of row r. -/
theorem pay7 (x0 : FVec Ideal S10000x128 .f32) (x1 : FVec Ideal S10000x1 .f32) :
    k7_pay1 (F := Ideal) x0 x1 = Cert.Gcn.scaleRows x0 x1 := by
  unfold k7_pay1
  exact Cert.Gcn.scale_tile x0 x1 shapeCasts_S10000x128_S10000x128 shapeCasts_S10000x1_S10000x1 broadcasts_S10000x1_S10000x128

/-- Grid point t stages rows 10000 t, ..., 10000 t + 9999 of the rows, of the scale column and of the result. -/
theorem idx7 : ∀ t : Fin cfg7.N, win7_0.index t (0 : Fin 2) = win7_2.index t (0 : Fin 2) ∧ win7_0.index t (1 : Fin 2) = win7_2.index t (1 : Fin 2)
    ∧ win7_1.index t (0 : Fin 2) = win7_2.index t (0 : Fin 2) ∧ win7_1.index t (1 : Fin 2) = 0
    ∧ win7_2.index t (0 : Fin 2) = t.val ∧ win7_2.index t (1 : Fin 2) = 0 :=
  (by decide +kernel : ∀ t : Fin grid7.N, _)

/-- What grid point t writes back is its block of rows of the scaled array: row r of the block is row 10000 t + r of
    the rows times entry 10000 t + r of the scale column. -/
theorem flushed7 (c : Dev nD) (t : Fin cfg7.N) :
    (dat7 V c).flushed 2 t
      = ((cfg7.win 2).blk t).view.read (Elt Ideal) (Cert.Gcn.scaleRows (a := 1700000) (n := 128) (V c main_v82) (V c main_v98)) := by
  show (cfg7.win 2).cut (grid7.coords t) ((dat7 V c).after 2 t) = _
  rw [after7_2]
  unfold out7_2
  rw [View.canon_unit_zero hz]
  simp only [View.ld_unit_zero (S := S10000x128) hz, View.ld_unit_zero (S := S10000x1) hz]
  rw [pay7]
  obtain ⟨e0, e1, e2, e3, e4, e5⟩ := idx7 t
  refine funext fun (j : S10000x128.Idx) => ?_
  show Cert.Gcn.scaleRows (a := 10000) (n := 128) (iblk7 V c 0 t) (iblk7 V c 1 t) j
    = Cert.Gcn.scaleRows (a := 1700000) (n := 128) (V c main_v82) (V c main_v98) (((cfg7.win 2).blk t).view.emb j)
  refine Cert.Gcn.scaleRows_congr _ _ _ _ _ _ (congrArg (V c main_v82) (funext fun a => Fin.ext ?_)) (congrArg (V c main_v98) (funext fun a => Fin.ext ?_))
  · match a with
    | ⟨0, _⟩ => show win7_0.index t (0 : Fin 2) * 10000 + 1 * (j 0).val = win7_2.index t (0 : Fin 2) * 10000 + 1 * (j 0).val; rw [e0]
    | ⟨1, _⟩ => show win7_0.index t (1 : Fin 2) * 128 + 1 * (j 1).val = win7_2.index t (1 : Fin 2) * 128 + 1 * (j 1).val; rw [e1]
  · match a with
    | ⟨0, _⟩ => show win7_1.index t (0 : Fin 2) * 10000 + 1 * (j 0).val = win7_2.index t (0 : Fin 2) * 10000 + 1 * (j 0).val; rw [e2]
    | ⟨1, _⟩ => show win7_1.index t (1 : Fin 2) * 1 + 1 * 0 = 0; rw [e3]

/-- An index of the result is in point t's block iff, on each axis, it lies in the block's range. -/
theorem mem_blk7 (t : Fin cfg7.N) (i : S1700000x128.Idx) :
    i ∈ ((cfg7.win 2).blk t).view.set ↔ ∀ a : Fin 2, win7_2.index t a * S10000x128.size a ≤ (i a).val ∧ (i a).val < win7_2.index t a * S10000x128.size a + S10000x128.size a := by
  show i ∈ ((View.whole main_v99).slice (win7_2.rect t)).set ↔ _
  rw [View.set_slice_whole, Rect.mem_set_unit]
  exact Iff.rfl

/-- Row i of the result is written by grid point i / 10000. -/
theorem cover7 (i : S1700000x128.Idx) : ∃ t : Fin cfg7.N, (cfg7.win 2).flush t = true ∧ i ∈ ((cfg7.win 2).blk t).view.set := by
  have hi0 : (i 0).val < 1700000 := (i 0).isLt
  have hi1 : (i 1).val < 128 := (i 1).isLt
  have hN : cfg7.N = 170 := N_7
  refine ⟨⟨(i 0).val / 10000, by rw [hN]; omega⟩, flush7_2 _, ?_⟩
  rw [mem_blk7]
  obtain ⟨e0, e1, e2, e3, e4, e5⟩ := idx7 ⟨(i 0).val / 10000, by rw [hN]; omega⟩
  intro a
  match a with
  | ⟨0, _⟩ =>
    show win7_2.index _ (0 : Fin 2) * 10000 ≤ (i 0).val ∧ (i 0).val < win7_2.index _ (0 : Fin 2) * 10000 + 10000
    rw [e4]; show (i 0).val / 10000 * 10000 ≤ (i 0).val ∧ (i 0).val < (i 0).val / 10000 * 10000 + 10000; omega
  | ⟨1, _⟩ =>
    show win7_2.index _ (1 : Fin 2) * 128 ≤ (i 1).val ∧ (i 1).val < win7_2.index _ (1 : Fin 2) * 128 + 128
    rw [e5]; omega

/-- After the region its output array is the rows it was entered with, each scaled by its entry of the column. -/
theorem final7 (c : Dev nD) :
    (dat7 V c).arrAt 2 cfg7.N = Cert.Gcn.scaleRows (a := 1700000) (n := 128) (V c main_v82) (V c main_v98) :=
  (dat7 V c).arrAt_eq_of_cover 2 _ (fun t _ => flushed7 V c t) (cover7)

end Cert.KernelIdeal.RegionSC7

end
-- ==== Proof.RegionBR8.lean ====
/-
  The third layer's bias region: after it, its output array holds the per-node sums it was entered with plus the bias
  row, with the maximum with zero taken, row block by row block.
-/
import proofs.«111753_j24386824306774_1_alg».proof.Proof.Gen.KernelIdeal.Frame
import proofs.«111753_j24386824306774_1_alg».proof.Proof.GcnSpec
import Idealize.ShloMosaic.Lib.Pipeline.Value

set_option maxRecDepth 16384

noncomputable section

namespace Cert.KernelIdeal.RegionBR8

open Cert.KernelIdeal Cert.KernelIdeal.Gen Idealize.ShloMosaic Idealize.ShloMosaic.TcCoe Idealize.SL.Sem
open Idealize.ShloMosaic.ValueIdx
open Idealize.ShloMosaic.Pipeline (Dat)

-- the buffer contents a region is entered from
variable (V : (c : Dev nD) → (b : Ref sig .tc) → Buf (Elt Ideal) ((c : Thread nD τ).loc b))

theorem hz : (![0, 0] : Fin 2 → Nat) = fun _ => 0 := funext fun a => by fin_cases a <;> rfl

/-! ## Region 8: a block of 10000 node rows with the bias added and the maximum with zero taken -/

/-- The tile's value: the block plus the bias row in every row, then the maximum with zero. -/
theorem pay8 (x0 : FVec Ideal S10000x128 .f32) (x1 : FVec Ideal S1x128 .f32) :
    k8_pay1 (F := Ideal) x0 x1 = Cert.Gcn.biasRelu x0 x1 := by
  unfold k8_pay1
  exact Cert.Gcn.bias_tile x0 x1 shapeCasts_S10000x128_S10000x128 shapeCasts_S1x128_S1x128 broadcasts_S1x128_S10000x128

/-- Grid point t stages rows 10000 t, ..., 10000 t + 9999 of the array and of the result, and the whole bias row. -/
theorem idx8 : ∀ t : Fin cfg8.N, win8_0.index t (0 : Fin 2) = win8_2.index t (0 : Fin 2) ∧ win8_0.index t (1 : Fin 2) = win8_2.index t (1 : Fin 2)
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What grid point t writes back is its block of rows of the biased, rectified array. -/
theorem flushed8 (c : Dev nD) (t : Fin cfg8.N) :
    (dat8 V c).flushed 2 t
      = ((cfg8.win 2).blk t).view.read (Elt Ideal) (Cert.Gcn.biasRelu (a := 100000) (n := 128) (V c main_v102) (V c main_v103)) := by
  show (cfg8.win 2).cut (grid8.coords t) ((dat8 V c).after 2 t) = _
  rw [after8_2]
  unfold out8_2
  rw [View.canon_unit_zero hz]
  simp only [View.ld_unit_zero (S := S10000x128) hz, View.ld_unit_zero (S := S1x128) hz]
  rw [pay8]
  obtain ⟨e0, e1, e2, e3, e4, e5⟩ := idx8 t
  refine funext fun (j : S10000x128.Idx) => ?_
  show Cert.Gcn.biasRelu (a := 10000) (n := 128) (iblk8 V c 0 t) (iblk8 V c 1 t) j
    = Cert.Gcn.biasRelu (a := 100000) (n := 128) (V c main_v102) (V c main_v103) (((cfg8.win 2).blk t).view.emb j)
  refine Cert.Gcn.biasRelu_congr _ _ _ _ _ _ (congrArg (V c main_v102) (funext fun a => Fin.ext ?_)) (congrArg (V c main_v103) (funext fun a => Fin.ext ?_))
  · match a with
    | ⟨0, _⟩ => show win8_0.index t (0 : Fin 2) * 10000 + 1 * (j 0).val = win8_2.index t (0 : Fin 2) * 10000 + 1 * (j 0).val; rw [e0]
    | ⟨1, _⟩ => show win8_0.index t (1 : Fin 2) * 128 + 1 * (j 1).val = win8_2.index t (1 : Fin 2) * 128 + 1 * (j 1).val; rw [e1]
  · match a with
    | ⟨0, _⟩ => show win8_1.index t (0 : Fin 2) * 1 + 1 * 0 = 0; rw [e2]
    | ⟨1, _⟩ => show win8_1.index t (1 : Fin 2) * 128 + 1 * (j 1).val = win8_2.index t (1 : Fin 2) * 128 + 1 * (j 1).val; rw [e3, e5]

/-- An index of the result is in point t's block iff, on each axis, it lies in the block's range. -/
theorem mem_blk8 (t : Fin cfg8.N) (i : S100000x128.Idx) :
    i ∈ ((cfg8.win 2).blk t).view.set ↔ ∀ a : Fin 2, win8_2.index t a * S10000x128.size a ≤ (i a).val ∧ (i a).val < win8_2.index t a * S10000x128.size a + S10000x128.size a := by
  show i ∈ ((View.whole main_v104).slice (win8_2.rect t)).set ↔ _
  rw [View.set_slice_whole, Rect.mem_set_unit]
  exact Iff.rfl

/-- Row i of the result is written by grid point i / 10000. -/
theorem cover8 (i : S100000x128.Idx) : ∃ t : Fin cfg8.N, (cfg8.win 2).flush t = true ∧ i ∈ ((cfg8.win 2).blk t).view.set := by
  have hi0 : (i 0).val < 100000 := (i 0).isLt
  have hi1 : (i 1).val < 128 := (i 1).isLt
  have hN : cfg8.N = 10 := N_8
  refine ⟨⟨(i 0).val / 10000, by rw [hN]; omega⟩, flush8_2 _, ?_⟩
  rw [mem_blk8]
  obtain ⟨e0, e1, e2, e3, e4, e5⟩ := idx8 ⟨(i 0).val / 10000, by rw [hN]; omega⟩
  intro a
  match a with
  | ⟨0, _⟩ =>
    show win8_2.index _ (0 : Fin 2) * 10000 ≤ (i 0).val ∧ (i 0).val < win8_2.index _ (0 : Fin 2) * 10000 + 10000
    rw [e4]; show (i 0).val / 10000 * 10000 ≤ (i 0).val ∧ (i 0).val < (i 0).val / 10000 * 10000 + 10000; omega
  | ⟨1, _⟩ =>
    show win8_2.index _ (1 : Fin 2) * 128 ≤ (i 1).val ∧ (i 1).val < win8_2.index _ (1 : Fin 2) * 128 + 128
    rw [e5]; omega

/-- After the region its output array is the array it was entered with plus the bias row, rectified. -/
theorem final8 (c : Dev nD) :
    (dat8 V c).arrAt 2 cfg8.N = Cert.Gcn.biasRelu (a := 100000) (n := 128) (V c main_v102) (V c main_v103) :=
  (dat8 V c).arrAt_eq_of_cover 2 _ (fun t _ => flushed8 V c t) (cover8)

end Cert.KernelIdeal.RegionBR8

end
-- ==== Proof.ChainL3.lean ====
/-
  The third layer, boundary by boundary: what each region and each stretch of host operations leaves, as the layer's
  parts applied to the second layer's result and the argument arrays.
-/
import proofs.«111753_j24386824306774_1_alg».proof.Proof.ChainBase
import proofs.«111753_j24386824306774_1_alg».proof.Proof.ChainDinv
import proofs.«111753_j24386824306774_1_alg».proof.Proof.RegionMM6
import proofs.«111753_j24386824306774_1_alg».proof.Proof.RegionSC7
import proofs.«111753_j24386824306774_1_alg».proof.Proof.RegionBR8
import proofs.«111753_j24386824306774_1_alg».proof.Proof.GcnSpec
import proofs.«111753_j24386824306774_1_alg».proof.Proof.LibDenseLayer

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## Layer 3 -/

/-- The product region leaves the product of the layer's input features and its weights. -/
theorem feat_3 : W13 m ρ c (Proc.devRef .tc main_v75)
    = Host.dotGeneral (F := Ideal) (φ₁ := .f32) (φ₂ := .f32) Cert.ReferenceIdeal.dot_S100000x128_S128x128_S100000x128_1_0_0_1_n_n none (W12 m ρ c (Proc.devRef .tc main_v74)) (m ((c.tc : Thread nD τ).loc main_arg5)) := by
  refine (W13_arr m ρ c 2).trans ((RegionMM6.final6 (V12 m ρ) c).trans ?_)
  show Cert.Dense.prod (a := 100000) (k := 128) (n := 128) (W12 m ρ c (Proc.devRef .tc main_v74)) (W12 m ρ c (Proc.devRef .tc main_arg5)) = _
  rw [(main_arg5_at12 m ρ c).trans (w0_arg m ρ c main_arg5)]
  exact (Cert.Dense.dotGeneral_eq_prod Cert.ReferenceIdeal.dot_S100000x128_S128x128_S100000x128_1_0_0_1_n_n rfl rfl rfl rfl rfl rfl _ _).symm

/-- The host gathers the product's row of every edge's source. -/
theorem gsrc_3 : W14 m ρ c (Proc.devRef .tc main_v82)
    = Host.gather Cert.ReferenceIdeal.gather_S100000x128_S1700000x1_S1700000x128_1_0_n_n_0_1_1128 (W13 m ρ c (Proc.devRef .tc main_v75)) (Cert.Gcn.wrap (Cert.Gcn.srcOf (m ((c.tc : Thread nD τ).loc main_arg7)))) := by
  show StableHlo.after hostOps7 (W13 m ρ c) (Proc.devRef .tc main_v82) = _
  after_results_simp
  rw [(main_v3_at13 m ρ c).trans (w2_src m ρ c)]
  rfl

/-- The host lays the edges' scales out as a column. -/
theorem ncol_3 : W14 m ρ c (Proc.devRef .tc main_v98)
    = broadcastInDim Cert.ReferenceIdeal.S1700000x1 ![0] Cert.ReferenceIdeal.Facts₀.bcast_S1700000_S1700000x1_0 (Cert.Gcn.normOf (m ((c.tc : Thread nD τ).loc main_arg7))) := by
  show StableHlo.after hostOps7 (W13 m ρ c) (Proc.devRef .tc main_v98) = _
  after_results_simp
  rw [(main_v3_at13 m ρ c).trans (w2_src m ρ c), (main_v6_at13 m ρ c).trans (w2_dst m ρ c), (main_v14_at13 m ρ c).trans (w2_dinv m ρ c)]
  rfl

/-- The scaling region leaves the messages: the gathered rows, each times its edge's scale. -/
theorem msg_3 : W15 m ρ c (Proc.devRef .tc main_v99) = Cert.Gcn.messages (W13 m ρ c (Proc.devRef .tc main_v75)) (m ((c.tc : Thread nD τ).loc main_arg7)) := by
  refine (W15_arr m ρ c 2).trans ((RegionSC7.final7 (V14 m ρ) c).trans ?_)
  show Cert.Gcn.scaleRows (a := 1700000) (n := 128) (W14 m ρ c (Proc.devRef .tc main_v82)) (W14 m ρ c (Proc.devRef .tc main_v98)) = _
  rw [gsrc_3 m ρ c, ncol_3 m ρ c]
  exact (Cert.Gcn.scale_host _ _ Cert.ReferenceIdeal.Facts₀.bcast_S1700000x1_S1700000x128_0_1).symm

/-- The host sums the messages per destination node. -/
theorem agg_3 : W16 m ρ c (Proc.devRef .tc main_v102) = Cert.Gcn.aggregate (W15 m ρ c (Proc.devRef .tc main_v99)) (m ((c.tc : Thread nD τ).loc main_arg7)) := by
  show StableHlo.after hostOps8 (W15 m ρ c) (Proc.devRef .tc main_v102) = _
  after_results_simp
  rw [(main_v6_at15 m ρ c).trans (w2_dst m ρ c)]
  rfl

/-- The host lays the bias out as a row: the reshape is the broadcast along the second axis. -/
theorem brow_3 : W16 m ρ c (Proc.devRef .tc main_v103)
    = broadcastInDim Cert.ReferenceIdeal.S1x128 ![1] Cert.ReferenceIdeal.Facts₀.bcast_S128_S1x128_1 (m ((c.tc : Thread nD τ).loc main_arg6)) := by
  show StableHlo.after hostOps8 (W15 m ρ c) (Proc.devRef .tc main_v103) = _
  after_results_simp
  rw [(main_arg6_at15 m ρ c).trans (w0_arg m ρ c main_arg6)]
  exact Cert.Dense.row_cast_eq_bcast _ _ _

/-- The bias region leaves the layer's result. -/
theorem out_3 : W17 m ρ c (Proc.devRef .tc main_v104)
    = Cert.Gcn.layer (W12 m ρ c (Proc.devRef .tc main_v74)) (m ((c.tc : Thread nD τ).loc main_arg5)) (m ((c.tc : Thread nD τ).loc main_arg6)) (m ((c.tc : Thread nD τ).loc main_arg7)) := by
  refine (W17_arr m ρ c 2).trans ((RegionBR8.final8 (V16 m ρ) c).trans ?_)
  show Cert.Gcn.biasRelu (a := 100000) (n := 128) (W16 m ρ c (Proc.devRef .tc main_v102)) (W16 m ρ c (Proc.devRef .tc main_v103)) = _
  rw [agg_3 m ρ c, brow_3 m ρ c, msg_3 m ρ c, feat_3 m ρ c]
  exact (Cert.Gcn.bias_host _ _ Cert.ReferenceIdeal.Facts₀.bcast_S1x128_S100000x128_0_1 Cert.ReferenceIdeal.Facts₀.bcast_S_S100000x128).symm

end Cert.KernelIdeal.Chain

end
-- ==== Proof.RefForm.lean ====
/-
  The reference program's result is three layers, one after the other, of the argument arrays.
-/
import proofs.«111753_j24386824306774_1_alg».proof.Proof.RefRun
import proofs.«111753_j24386824306774_1_alg».proof.Proof.GcnLayer

noncomputable section

namespace Cert.ReferenceIdeal.RefForm

open Idealize.ShloMosaic Idealize.ShloMosaic.TcCoe Idealize.SL.Sem Cert.ReferenceIdeal Cert.Gcn

set_option maxRecDepth 16384 in
/-- The reference run's result term is `layer` applied three times: the printed operations are, one by one, those
    that `layer` and its parts are made of. -/
theorem result_eq (m : (ℓ : Loc nD τ sig) → Buf (Elt Ideal) ℓ) (c : Dev nD) :
    Cert.ReferenceIdeal.ValueP.res_main_v113 (F := Ideal) m c
      = layer (layer (layer (m ((c.tc : Thread nD τ).loc main_arg0)) (m ((c.tc : Thread nD τ).loc main_arg1)) (m ((c.tc : Thread nD τ).loc main_arg2)) (m ((c.tc : Thread nD τ).loc main_arg7)))
          (m ((c.tc : Thread nD τ).loc main_arg3)) (m ((c.tc : Thread nD τ).loc main_arg4)) (m ((c.tc : Thread nD τ).loc main_arg7)))
          (m ((c.tc : Thread nD τ).loc main_arg5)) (m ((c.tc : Thread nD τ).loc main_arg6)) (m ((c.tc : Thread nD τ).loc main_arg7)) := by
  unfold Cert.ReferenceIdeal.ValueP.res_main_v113 layer aggregate messages normOf dinvOf degOf wrap srcOf dstOf
  rfl

end Cert.ReferenceIdeal.RefForm

end
-- ==== Proof.lean ====
/-
  A three-layer graph convolution: the tiled program against its whole-array reference, on the extended reals.

  Both programs build from the edge list the same edge ends (every edge, then one self-loop per node), the same node
  degrees and the same inverse square roots of them, with the same host operations.  A layer multiplies the node
  features by a weight matrix, gathers the product's row of each edge's source, multiplies it by the edge's scale (the
  product of the two inverse square-root degrees at its ends), sums the scaled rows per destination node, adds a bias
  per column and takes the maximum with zero.  The gather and the per-node sum are the same host operations in both
  programs.  The three dense steps are, in the tiled program, regions over blocks of 10000 rows: the matrix unit's
  product of the operands rounded to bfloat16 into a zero accumulator (a change of float format does nothing to an
  extended real, and the product at an entry is the sum over the contracted axis, as the reference's dot_general is);
  a row-wise scaling by a column spread over the columns; a bias row spread over the rows, then the maximum with zero.
  Each entry of a dense step reads one row of its row-wise operand, so the blocks of rows the grid points write back are
  the blocks of the whole-array function, and the blocks tile the output array.  Hence after each region its output
  array is the reference's operation of the arrays the region was entered with, and, boundary by boundary through the
  run, the program's result is three layers of its arguments -- the very term the reference's run ends with.  No law of
  the extended reals is needed beyond the two sides spelling the same sums and products in the same order, so the
  precondition (finite inputs) is never opened.

  The frames of the two printed kernel programs are the generated frame certificates; the reference's frame is its
  run with the result dropped; the idealization rewrote no operation, so it is preserved trivially.
-/
import proofs.«111753_j24386824306774_1_alg».proof.Defs
import proofs.«111753_j24386824306774_1_alg».proof.Proof.Gen.Kernel
import proofs.«111753_j24386824306774_1_alg».proof.Proof.Gen.Kernel.Skeleton
import proofs.«111753_j24386824306774_1_alg».proof.Proof.Gen.Kernel.Launch
import proofs.«111753_j24386824306774_1_alg».proof.Proof.Gen.Kernel.Points
import proofs.«111753_j24386824306774_1_alg».proof.Proof.Gen.Kernel.Frame
import proofs.«111753_j24386824306774_1_alg».proof.Proof.Gen.KernelIdeal
import proofs.«111753_j24386824306774_1_alg».proof.Proof.Gen.KernelIdeal.Skeleton
import proofs.«111753_j24386824306774_1_alg».proof.Proof.Gen.KernelIdeal.Launch
import proofs.«111753_j24386824306774_1_alg».proof.Proof.Gen.KernelIdeal.Points
import proofs.«111753_j24386824306774_1_alg».proof.Proof.Gen.KernelIdeal.Frame
import proofs.«111753_j24386824306774_1_alg».proof.Proof.Gen.ReferenceIdeal
import proofs.«111753_j24386824306774_1_alg».proof.Proof.Gen.Pre_finite_inputs
import Idealize.ShloMosaic.Adequacy
import Idealize.ShloMosaic.Init
import proofs.«111753_j24386824306774_1_alg».proof.Proof.KernelRun
import proofs.«111753_j24386824306774_1_alg».proof.Proof.ChainL1
import proofs.«111753_j24386824306774_1_alg».proof.Proof.ChainL2
import proofs.«111753_j24386824306774_1_alg».proof.Proof.ChainL3
import proofs.«111753_j24386824306774_1_alg».proof.Proof.RefRun
import proofs.«111753_j24386824306774_1_alg».proof.Proof.RefForm

noncomputable section

namespace Cert.Proof

open Idealize.ShloMosaic Idealize.ShloMosaic.TcCoe Idealize.SL.Sem

/-- The tiled program's result array at the end of its run: three layers of the argument arrays. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W17 m ρ c (Proc.devRef .tc Cert.KernelIdeal.main_v104)
      = Cert.Gcn.layer (Cert.Gcn.layer (Cert.Gcn.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Cert.KernelIdeal.Chain.out_3 m ρ c, Cert.KernelIdeal.Chain.out_2 m ρ c, Cert.KernelIdeal.Chain.out_1 m ρ c]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the three layers of the arguments. -/
theorem algebraic : Cert.algebraic_KernelIdeal_ReferenceIdeal := by
  intro m ρ m' ρ' _ hagree
  refine ⟨fun c => Cert.Gcn.layer (Cert.Gcn.layer (Cert.Gcn.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (kernel_value m ρ c), (h c).2⟩)
      (Cert.KernelIdeal.Named.run_named m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefForm.result_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
